-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S2048x500 : Shape := ⟨2, ![2048, 500]⟩
abbrev S256x20000 : Shape := ⟨2, ![256, 20000]⟩
abbrev S256x500 : Shape := ⟨2, ![256, 500]⟩
abbrev S_ : Shape := ⟨0, ![]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S2048x500 : S_.BroadcastsInDim S2048x500 (![] : Fin 0 → Fin S2048x500.rank)
  reducesTo_S2048x500_S_d0_1 : S2048x500.ReducesTo [0, 1] S_
  bcast_S_S256x20000 : S_.BroadcastsInDim S256x20000 (![] : Fin 0 → Fin S256x20000.rank)
  reducesTo_S256x20000_S_d0_1 : S256x20000.ReducesTo [0, 1] S_
  bcast_S_S256x500 : S_.BroadcastsInDim S256x500 (![] : Fin 0 → Fin S256x500.rank)
  reducesTo_S256x500_S_d0_1 : S256x500.ReducesTo [0, 1] S_

variable [Facts]

def fn_part3 {F : FTy → Type} [FloatOps F] (main_v48 : IVec S_ 1) (main_v49 : FVec F S256x500 .f32) (main_v50 : FVec F S256x500 .f32) : IVec S_ 1 :=
  let main_v51 : IVec S256x500 1 := cmpf .olt main_v49 main_v50
  let main_c_19 : IVec S_ 1 := constantI S_ 1 1#1
  let main_v52 : IVec S_ 1 := (fun x v => Host.reduce IntOp.andi x v reducesTo_S256x500_S_d0_1 h_S_) main_v51 main_c_19
  let main_v53 : IVec S_ 1 := andi main_v48 main_v52
  main_v53

def fn_part2 {F : FTy → Type} [FloatOps F] (main_arg7 : FVec F S256x500 .f32) (main_arg8 : FVec F S256x500 .f32) (main_arg9 : FVec F S256x500 .f32) (main_arg10 : FVec F S256x500 .f32) (main_v33 : IVec S_ 1) : IVec S_ 1 :=
  let main_v34 : FVec F S256x500 .f32 := Host.absf main_arg7
  let main_cst_12 : FVec F S_ .f32 := constant S_ .f32 0x7F800000#32
  let main_v35 : FVec F S256x500 .f32 := broadcastInDim S256x500 ![] bcast_S_S256x500 main_cst_12
  let main_v36 : IVec S256x500 1 := cmpf .olt main_v34 main_v35
  let main_c_13 : IVec S_ 1 := constantI S_ 1 1#1
  let main_v37 : IVec S_ 1 := (fun x v => Host.reduce IntOp.andi x v reducesTo_S256x500_S_d0_1 h_S_) main_v36 main_c_13
  let main_v38 : IVec S_ 1 := andi main_v33 main_v37
  let main_v39 : FVec F S256x500 .f32 := Host.absf main_arg8
  let main_cst_14 : FVec F S_ .f32 := constant S_ .f32 0x7F800000#32
  let main_v40 : FVec F S256x500 .f32 := broadcastInDim S256x500 ![] bcast_S_S256x500 main_cst_14
  let main_v41 : IVec S256x500 1 := cmpf .olt main_v39 main_v40
  let main_c_15 : IVec S_ 1 := constantI S_ 1 1#1
  let main_v42 : IVec S_ 1 := (fun x v => Host.reduce IntOp.andi x v reducesTo_S256x500_S_d0_1 h_S_) main_v41 main_c_15
  let main_v43 : IVec S_ 1 := andi main_v38 main_v42
  let main_v44 : FVec F S256x500 .f32 := Host.absf main_arg9
  let main_cst_16 : FVec F S_ .f32 := constant S_ .f32 0x7F800000#32
  let main_v45 : FVec F S256x500 .f32 := broadcastInDim S256x500 ![] bcast_S_S256x500 main_cst_16
  let main_v46 : IVec S256x500 1 := cmpf .olt main_v44 main_v45
  let main_c_17 : IVec S_ 1 := constantI S_ 1 1#1
  let main_v47 : IVec S_ 1 := (fun x v => Host.reduce IntOp.andi x v reducesTo_S256x500_S_d0_1 h_S_) main_v46 main_c_17
  let main_v48 : IVec S_ 1 := andi main_v43 main_v47
  let main_v49 : FVec F S256x500 .f32 := Host.absf main_arg10
  let main_cst_18 : FVec F S_ .f32 := constant S_ .f32 0x7F800000#32
  let main_v50 : FVec F S256x500 .f32 := broadcastInDim S256x500 ![] bcast_S_S256x500 main_cst_18
  fn_part3 (F := F) main_v48 main_v49 main_v50

def fn_part1 {F : FTy → Type} [FloatOps F] (main_arg4 : FVec F S256x20000 .f32) (main_arg5 : FVec F S256x20000 .f32) (main_arg6 : FVec F S256x20000 .f32) (main_arg7 : FVec F S256x500 .f32) (main_arg8 : FVec F S256x500 .f32) (main_arg9 : FVec F S256x500 .f32) (main_arg10 : FVec F S256x500 .f32) (main_v13 : IVec S_ 1) (main_v16 : IVec S256x20000 1) : IVec S_ 1 :=
  let main_c_5 : IVec S_ 1 := constantI S_ 1 1#1
  let main_v17 : IVec S_ 1 := (fun x v => Host.reduce IntOp.andi x v reducesTo_S256x20000_S_d0_1 h_S_) main_v16 main_c_5
  let main_v18 : IVec S_ 1 := andi main_v13 main_v17
  let main_v19 : FVec F S256x20000 .f32 := Host.absf main_arg4
  let main_cst_6 : FVec F S_ .f32 := constant S_ .f32 0x7F800000#32
  let main_v20 : FVec F S256x20000 .f32 := broadcastInDim S256x20000 ![] bcast_S_S256x20000 main_cst_6
  let main_v21 : IVec S256x20000 1 := cmpf .olt main_v19 main_v20
  let main_c_7 : IVec S_ 1 := constantI S_ 1 1#1
  let main_v22 : IVec S_ 1 := (fun x v => Host.reduce IntOp.andi x v reducesTo_S256x20000_S_d0_1 h_S_) main_v21 main_c_7
  let main_v23 : IVec S_ 1 := andi main_v18 main_v22
  let main_v24 : FVec F S256x20000 .f32 := Host.absf main_arg5
  let main_cst_8 : FVec F S_ .f32 := constant S_ .f32 0x7F800000#32
  let main_v25 : FVec F S256x20000 .f32 := broadcastInDim S256x20000 ![] bcast_S_S256x20000 main_cst_8
  let main_v26 : IVec S256x20000 1 := cmpf .olt main_v24 main_v25
  let main_c_9 : IVec S_ 1 := constantI S_ 1 1#1
  let main_v27 : IVec S_ 1 := (fun x v => Host.reduce IntOp.andi x v reducesTo_S256x20000_S_d0_1 h_S_) main_v26 main_c_9
  let main_v28 : IVec S_ 1 := andi main_v23 main_v27
  let main_v29 : FVec F S256x20000 .f32 := Host.absf main_arg6
  let main_cst_10 : FVec F S_ .f32 := constant S_ .f32 0x7F800000#32
  let main_v30 : FVec F S256x20000 .f32 := broadcastInDim S256x20000 ![] bcast_S_S256x20000 main_cst_10
  let main_v31 : IVec S256x20000 1 := cmpf .olt main_v29 main_v30
  let main_c_11 : IVec S_ 1 := constantI S_ 1 1#1
  let main_v32 : IVec S_ 1 := (fun x v => Host.reduce IntOp.andi x v reducesTo_S256x20000_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x20000 .f32) (main_arg1 : FVec F S2048x20000 .f32) (main_arg2 : FVec F S2048x500 .f32) (main_arg3 : FVec F S256x20000 .f32) (main_arg4 : FVec F S256x20000 .f32) (main_arg5 : FVec F S256x20000 .f32) (main_arg6 : FVec F S256x20000 .f32) (main_arg7 : FVec F S256x500 .f32) (main_arg8 : FVec F S256x500 .f32) (main_arg9 : FVec F S256x500 .f32) (main_arg10 : FVec F S256x500 .f32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S2048x20000 .f32 := Host.absf main_arg1
  let main_cst_0 : FVec F S_ .f32 := constant S_ .f32 0x7F800000#32
  let main_v5 : FVec F S2048x20000 .f32 := broadcastInDim S2048x20000 ![] bcast_S_S2048x20000 main_cst_0
  let main_v6 : IVec S2048x20000 1 := cmpf .olt main_v4 main_v5
  let main_c_1 : IVec S_ 1 := constantI S_ 1 1#1
  let main_v7 : IVec S_ 1 := (fun x v => Host.reduce IntOp.andi x v reducesTo_S2048x20000_S_d0_1 h_S_) main_v6 main_c_1
  let main_v8 : IVec S_ 1 := andi main_v3 main_v7
  let main_v9 : FVec F S2048x500 .f32 := Host.absf main_arg2
  let main_cst_2 : FVec F S_ .f32 := constant S_ .f32 0x7F800000#32
  let main_v10 : FVec F S2048x500 .f32 := broadcastInDim S2048x500 ![] bcast_S_S2048x500 main_cst_2
  let main_v11 : IVec S2048x500 1 := cmpf .olt main_v9 main_v10
  let main_c_3 : IVec S_ 1 := constantI S_ 1 1#1
  let main_v12 : IVec S_ 1 := (fun x v => Host.reduce IntOp.andi x v reducesTo_S2048x500_S_d0_1 h_S_) main_v11 main_c_3
  let main_v13 : IVec S_ 1 := andi main_v8 main_v12
  let main_v14 : FVec F S256x20000 .f32 := Host.absf main_arg3
  let main_cst_4 : FVec F S_ .f32 := constant S_ .f32 0x7F800000#32
  let main_v15 : FVec F S256x20000 .f32 := broadcastInDim S256x20000 ![] bcast_S_S256x20000 main_cst_4
  let main_v16 : IVec S256x20000 1 := cmpf .olt main_v14 main_v15
  fn_part1 (F := F) main_arg4 main_arg5 main_arg6 main_arg7 main_arg8 main_arg9 main_arg10 main_v13 main_v16
-- ==== Kernel.lean ====
abbrev S2048x20000 : Shape := ⟨2, ![2048, 20000]⟩
abbrev S2048x500 : Shape := ⟨2, ![2048, 500]⟩
abbrev S256x20000 : Shape := ⟨2, ![256, 20000]⟩
abbrev S256x500 : Shape := ⟨2, ![256, 500]⟩
abbrev S_ : Shape := ⟨0, ![]⟩
abbrev S2048x20480 : Shape := ⟨2, ![2048, 20480]⟩
abbrev S1024x20000 : Shape := ⟨2, ![1024, 20000]⟩
abbrev S1024x20480 : Shape := ⟨2, ![1024, 20480]⟩
abbrev S20480x1024 : Shape := ⟨2, ![20480, 1024]⟩
abbrev S1024x500 : Shape := ⟨2, ![1024, 500]⟩
abbrev S500x1024 : Shape := ⟨2, ![500, 1024]⟩
abbrev S2048x1 : Shape := ⟨2, ![2048, 1]⟩
abbrev S512x1280 : Shape := ⟨2, ![512, 1280]⟩
abbrev S512x500 : Shape := ⟨2, ![512, 500]⟩
abbrev S1280x1024 : Shape := ⟨2, ![1280, 1024]⟩
abbrev S512x1 : Shape := ⟨2, ![512, 1]⟩
abbrev S512x1024 : Shape := ⟨2, ![512, 1024]⟩
abbrev S512x256 : Shape := ⟨2, ![512, 256]⟩
abbrev S512 : Shape := ⟨1, ![512]⟩

abbrev nBuf : Space → Nat
  | .hbm => 30
  | .vmem => 14
  | .smem => 0
  | _ => 0

abbrev bufTy : (tb : Table) → Fin (tcTables nBuf tb) → BufTy
  | .hbm, ⟨0, _⟩ => ⟨S2048x20000, .f32⟩
  | .hbm, ⟨1, _⟩ => ⟨S2048x20000, .f32⟩
  | .hbm, ⟨2, _⟩ => ⟨S2048x500, .f32⟩
  | .hbm, ⟨3, _⟩ => ⟨S256x20000, .f32⟩
  | .hbm, ⟨4, _⟩ => ⟨S256x20000, .f32⟩
  | .hbm, ⟨5, _⟩ => ⟨S256x20000, .f32⟩
  | .hbm, ⟨6, _⟩ => ⟨S256x20000, .f32⟩
  | .hbm, ⟨7, _⟩ => ⟨S256x500, .f32⟩
  | .hbm, ⟨8, _⟩ => ⟨S256x500, .f32⟩
  | .hbm, ⟨9, _⟩ => ⟨S256x500, .f32⟩
  | .hbm, ⟨10, _⟩ => ⟨S256x500, .f32⟩
  | .hbm, ⟨11, _⟩ => ⟨S_, .i32⟩
  | .hbm, ⟨12, _⟩ => ⟨S_, .f32⟩
  | .hbm, ⟨13, _⟩ => ⟨S2048x20480, .f32⟩
  | .hbm, ⟨14, _⟩ => ⟨S2048x20480, .bf16⟩
  | .hbm, ⟨15, _⟩ => ⟨S_, .i32⟩
  | .hbm, ⟨16, _⟩ => ⟨S_, .f32⟩
  | .hbm, ⟨17, _⟩ => ⟨S2048x20480, .f32⟩
  | .hbm, ⟨18, _⟩ => ⟨S2048x20480, .bf16⟩
  | .hbm, ⟨19, _⟩ => ⟨S2048x500, .bf16⟩
  | .hbm, ⟨20, _⟩ => ⟨S1024x20000, .f32⟩
  | .hbm, ⟨21, _⟩ => ⟨S_, .i32⟩
  | .hbm, ⟨22, _⟩ => ⟨S_, .f32⟩
  | .hbm, ⟨23, _⟩ => ⟨S1024x20480, .f32⟩
  | .hbm, ⟨24, _⟩ => ⟨S20480x1024, .f32⟩
  | .hbm, ⟨25, _⟩ => ⟨S20480x1024, .bf16⟩
  | .hbm, ⟨26, _⟩ => ⟨S1024x500, .f32⟩
  | .hbm, ⟨27, _⟩ => ⟨S500x1024, .f32⟩
  | .hbm, ⟨28, _⟩ => ⟨S500x1024, .bf16⟩
  | .hbm, ⟨29, _⟩ => ⟨S2048x1, .f32⟩
  | .local _ .vmem, ⟨0, _⟩ => ⟨S512x1280, .bf16⟩
  | .local _ .vmem, ⟨1, _⟩ => ⟨S512x1280, .bf16⟩
  | .local _ .vmem, ⟨2, _⟩ => ⟨S512x1280, .bf16⟩
  | .local _ .vmem, ⟨3, _⟩ => ⟨S512x1280, .bf16⟩
  | .local _ .vmem, ⟨4, _⟩ => ⟨S512x500, .bf16⟩
  | .local _ .vmem, ⟨5, _⟩ => ⟨S512x500, .bf16⟩
  | .local _ .vmem, ⟨6, _⟩ => ⟨S1280x1024, .bf16⟩
  | .local _ .vmem, ⟨7, _⟩ => ⟨S1280x1024, .bf16⟩
  | .local _ .vmem, ⟨8, _⟩ => ⟨S500x1024, .bf16⟩
  | .local _ .vmem, ⟨9, _⟩ => ⟨S512x1, .f32⟩
  | .local _ .vmem, ⟨10, _⟩ => ⟨S512x1, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x500 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S500x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  pads_S2048x20000_S2048x20480_000_04800 : S2048x20000.Pads (![0, 0] : Fin 2 → Nat) ![0, 480] ![0, 0] S2048x20480
  h_S_ : 0 < S_.numel
  bitsLt_bf16_f32 : FTy.bits .bf16 < FTy.bits .f32
  concatenates_S256x20000_S256x20000_S256x20000_S256x20000_S1024x20000_d0 : Shape.Concatenates [S256x20000, S256x20000, S256x20000, S256x20000] S1024x20000 0
  pads_S1024x20000_S1024x20480_000_04800 : S1024x20000.Pads (![0, 0] : Fin 2 → Nat) ![0, 480] ![0, 0] S1024x20480
  transposes_S1024x20480_S20480x1024_1_0 : S1024x20480.Transposes [1, 0] S20480x1024
  concatenates_S256x500_S256x500_S256x500_S256x500_S1024x500_d0 : Shape.Concatenates [S256x500, S256x500, S256x500, S256x500] S1024x500 0
  transposes_S1024x500_S500x1024_1_0 : S1024x500.Transposes [1, 0] S500x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x500_S512x500_0_0 : ∀ a, (![0, 0] : Fin 2 → Nat) a + S512x500.size a ≤ S512x500.size a
  h_S512x500 : 0 < S512x500.numel
  shapeCasts_S512x500_S512x500 : S512x500.ShapeCasts S512x500
  inb_S500x1024_S500x1024_0_0 : ∀ a, (![0, 0] : Fin 2 → Nat) a + S500x1024.size a ≤ S500x1024.size a
  h_S500x1024 : 0 < S500x1024.numel
  shapeCasts_S500x1024_S500x1024 : S500x1024.ShapeCasts S500x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  reduces_S512x256_S512 : S512x256.Reduces [1] S512
  shapeCasts_S512_S512x1 : S512.ShapeCasts S512x1
  broadcasts_S512x1_S512x1024 : S512x1.Broadcasts S512x1024
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S512x1_S512x1_0_0 : ∀ a, (![0, 0] : Fin 2 → Nat) a + S512x1.size a ≤ S512x1.size a
  h_S512x1 : 0 < S512x1.numel
  dot_S512x500_S500x1024_S512x1024_1_0_0_1_n_n_wf : DotDims.WF S512x500 S500x1024 S512x1024 [1] [0] [0] [1] [] []
  dot_S512x1280_S1280x1024_S512x1024_1_0_0_1_n_n_wf : DotDims.WF S512x1280 S1280x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1280.size a ≤ S2048x20480.size a
  hwx0_0 : ∀ i : grid0.Coords, EltTy.bits .bf16 = 32 ∨ (Rect.block (s := S2048x20480) S512x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S2048x20480.size a
  hwx0_1 : ∀ i : grid0.Coords, EltTy.bits .bf16 = 32 ∨ (Rect.block (s := S2048x20480) S512x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x500.size a ≤ S2048x500.size a
  hwx0_2 : ∀ i : grid0.Coords, EltTy.bits .bf16 = 32 ∨ (Rect.block (s := S2048x500) S512x500.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x1024.size a ≤ S20480x1024.size a
  hwx0_3 : ∀ i : grid0.Coords, EltTy.bits .bf16 = 32 ∨ (Rect.block (s := S20480x1024) S1280x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500x1024.size a ≤ S500x1024.size a
  hwx0_4 : ∀ i : grid0.Coords, EltTy.bits .bf16 = 32 ∨ (Rect.block (s := S500x1024) S500x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S2048x1.size a
  hwx0_5 : ∀ i : grid0.Coords, EltTy.bits .f32 = 32 ∨ (Rect.block (s := S2048x1) S512x1.size (cc0_transform_5 i) (hinb0_5 i)).WholeWords (EltTy.packing .f32)

variable [Facts₀]

def dot_S512x500_S500x1024_S512x1024_1_0_0_1_n_n : DotDims S512x500 S500x1024 S512x1024 where
  lhsContracting := [1]
  rhsContracting := [0]
  lhsNonContracting := [0]
  rhsNonContracting := [1]
  lhsBatch := []
  rhsBatch := []
  wf := dot_S512x500_S500x1024_S512x1024_1_0_0_1_n_n_wf
def dot_S512x1280_S1280x1024_S512x1024_1_0_0_1_n_n : DotDims S512x1280 S1280x1024 S512x1024 where
  lhsContracting := [1]
  rhsContracting := [0]
  lhsNonContracting := [0]
  rhsNonContracting := [1]
  lhsBatch := []
  rhsBatch := []
  wf := dot_S512x1280_S1280x1024_S512x1024_1_0_0_1_n_n_wf

abbrev win0_0 : Pipeline.Window sig grid0 :=
  Pipeline.Window.ofSpec (Memref.whole main_v1) S512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1280x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S500x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x20000 : Shape := ⟨2, ![2048, 20000]⟩
abbrev S2048x500 : Shape := ⟨2, ![2048, 500]⟩
abbrev S256x20000 : Shape := ⟨2, ![256, 20000]⟩
abbrev S256x500 : Shape := ⟨2, ![256, 500]⟩
abbrev S20000x256 : Shape := ⟨2, ![20000, 256]⟩
abbrev S2048x256 : Shape := ⟨2, ![2048, 256]⟩
abbrev S500x256 : Shape := ⟨2, ![500, 256]⟩
abbrev S_ : Shape := ⟨0, ![]⟩
abbrev S2048 : Shape := ⟨1, ![2048]⟩
abbrev S2048x1 : Shape := ⟨2, ![2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S2048x20000, .f32⟩
  | .hbm, ⟨1, _⟩ => ⟨S2048x20000, .f32⟩
  | .hbm, ⟨2, _⟩ => ⟨S2048x500, .f32⟩
  | .hbm, ⟨3, _⟩ => ⟨S256x20000, .f32⟩
  | .hbm, ⟨4, _⟩ => ⟨S256x20000, .f32⟩
  | .hbm, ⟨5, _⟩ => ⟨S256x20000, .f32⟩
  | .hbm, ⟨6, _⟩ => ⟨S256x20000, .f32⟩
  | .hbm, ⟨7, _⟩ => ⟨S256x500, .f32⟩
  | .hbm, ⟨8, _⟩ => ⟨S256x500, .f32⟩
  | .hbm, ⟨9, _⟩ => ⟨S256x500, .f32⟩
  | .hbm, ⟨10, _⟩ => ⟨S256x500, .f32⟩
  | .hbm, ⟨11, _⟩ => ⟨S20000x256, .f32⟩
  | .hbm, ⟨12, _⟩ => ⟨S2048x256, .f32⟩
  | .hbm, ⟨13, _⟩ => ⟨S20000x256, .f32⟩
  | .hbm, ⟨14, _⟩ => ⟨S2048x256, .f32⟩
  | .hbm, ⟨15, _⟩ => ⟨S20000x256, .f32⟩
  | .hbm, ⟨16, _⟩ => ⟨S2048x256, .f32⟩
  | .hbm, ⟨17, _⟩ => ⟨S20000x256, .f32⟩
  | .hbm, ⟨18, _⟩ => ⟨S2048x256, .f32⟩
  | .hbm, ⟨19, _⟩ => ⟨S20000x256, .f32⟩
  | .hbm, ⟨20, _⟩ => ⟨S2048x256, .f32⟩
  | .hbm, ⟨21, _⟩ => ⟨S20000x256, .f32⟩
  | .hbm, ⟨22, _⟩ => ⟨S2048x256, .f32⟩
  | .hbm, ⟨23, _⟩ => ⟨S20000x256, .f32⟩
  | .hbm, ⟨24, _⟩ => ⟨S2048x256, .f32⟩
  | .hbm, ⟨25, _⟩ => ⟨S20000x256, .f32⟩
  | .hbm, ⟨26, _⟩ => ⟨S2048x256, .f32⟩
  | .hbm, ⟨27, _⟩ => ⟨S500x256, .f32⟩
  | .hbm, ⟨28, _⟩ => ⟨S2048x256, .f32⟩
  | .hbm, ⟨29, _⟩ => ⟨S500x256, .f32⟩
  | .hbm, ⟨30, _⟩ => ⟨S2048x256, .f32⟩
  | .hbm, ⟨31, _⟩ => ⟨S500x256, .f32⟩
  | .hbm, ⟨32, _⟩ => ⟨S2048x256, .f32⟩
  | .hbm, ⟨33, _⟩ => ⟨S500x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1, .f32⟩
  | .hbm, ⟨46, _⟩ => ⟨S2048x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S2048x256, .f32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S2048x256, .f32⟩
  | .hbm, ⟨58, _⟩ => ⟨S2048x256, .f32⟩
  | .hbm, ⟨59, _⟩ => ⟨S2048x256, .f32⟩
  | .hbm, ⟨60, _⟩ => ⟨S2048x256, .f32⟩
  | .hbm, ⟨61, _⟩ => ⟨S2048x256, .f32⟩
  | .hbm, ⟨62, _⟩ => ⟨S2048x256, .f32⟩
  | .hbm, ⟨63, _⟩ => ⟨S2048x256, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S2048x256, .f32⟩
  | .hbm, ⟨72, _⟩ => ⟨S2048x256, .f32⟩
  | .hbm, ⟨73, _⟩ => ⟨S2048x256, .f32⟩
  | .hbm, ⟨74, _⟩ => ⟨S2048x256, .f32⟩
  | .hbm, ⟨75, _⟩ => ⟨S2048x256, .f32⟩
  | .hbm, ⟨76, _⟩ => ⟨S2048x256, .f32⟩
  | .hbm, ⟨77, _⟩ => ⟨S2048x256, .f32⟩
  | .hbm, ⟨78, _⟩ => ⟨S2048x256, .f32⟩
  | .hbm, ⟨79, _⟩ => ⟨S2048x256, .f32⟩
  | .hbm, ⟨80, _⟩ => ⟨S2048x256, .f32⟩
  | .hbm, ⟨81, _⟩ => ⟨S2048x256, .f32⟩
  | .hbm, ⟨82, _⟩ => ⟨S2048x256, .f32⟩
  | .hbm, ⟨83, _⟩ => ⟨S2048x256, .f32⟩
  | .hbm, ⟨84, _⟩ => ⟨S2048x256, .f32⟩
  | .hbm, ⟨85, _⟩ => ⟨S2048x256, .f32⟩
  | .hbm, ⟨86, _⟩ => ⟨S2048x256, .f32⟩
  | .hbm, ⟨87, _⟩ => ⟨S2048x256, .f32⟩
  | .hbm, ⟨88, _⟩ => ⟨S2048x256, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048x1, .f32⟩
  | .hbm, ⟨99, _⟩ => ⟨S2048x1, .f32⟩
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_0 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_1 : Ref sig .tc := ⟨.hbm, 94, rfl⟩
abbrev main_v81 : Ref sig .tc := ⟨.hbm, 95, rfl⟩
abbrev main_v82 : Ref sig .tc := ⟨.hbm, 96, rfl⟩
abbrev main_cst_2 : Ref sig .tc := ⟨.hbm, 97, rfl⟩
abbrev main_v83 : Ref sig .tc := ⟨.hbm, 98, rfl⟩
abbrev main_v84 : Ref sig .tc := ⟨.hbm, 99, rfl⟩

abbrev nD : Nat := 1
abbrev τ : Topo := Topo.v7x

variable {F : FTy → Type} [FloatOps F]

class Facts₀ : Prop where
  transposes_S256x20000_S20000x256_1_0 : S256x20000.Transposes [1, 0] S20000x256
  transposes_S256x500_S500x256_1_0 : S256x500.Transposes [1, 0] S500x256
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S_S2048x1 : S_.BroadcastsInDim S2048x1 (![] : Fin 0 → Fin S2048x1.rank)
  dot_S2048x20000_S20000x256_S2048x256_1_0_0_1_n_n_wf : DotDims.WF S2048x20000 S20000x256 S2048x256 [1] [0] [0] [1] [] []
  dot_S2048x500_S500x256_S2048x256_1_0_0_1_n_n_wf : DotDims.WF S2048x500 S500x256 S2048x256 [1] [0] [0] [1] [] []

variable [Facts₀]

def dot_S2048x20000_S20000x256_S2048x256_1_0_0_1_n_n : DotDims S2048x20000 S20000x256 S2048x256 where
  lhsContracting := [1]
  rhsContracting := [0]
  lhsNonContracting := [0]
  rhsNonContracting := [1]
  lhsBatch := []
  rhsBatch := []
  wf := dot_S2048x20000_S20000x256_S2048x256_1_0_0_1_n_n_wf
def dot_S2048x500_S500x256_S2048x256_1_0_0_1_n_n : DotDims S2048x500 S500x256 S2048x256 where
  lhsContracting := [1]
  rhsContracting := [0]
  lhsNonContracting := [0]
  rhsNonContracting := [1]
  lhsBatch := []
  rhsBatch := []
  wf := dot_S2048x500_S500x256_S2048x256_1_0_0_1_n_n_wf

class Facts : Prop extends Facts₀ where

variable [Facts]
-- ==== Proof.K.Around.lean ====
/-
  The region's surroundings for `Kernel`: what every buffer holds when the one pallas_call is entered (the host
  lines before it pad, concatenate, transpose and change format; none writes an argument array), @main as those
  lines followed by the region, each window's block at a grid point read off the entry contents, the two branch
  conditions of the body in closed form over the 4 × 16 grid (the step along the contraction axis is the point
  number mod 16: the first step resets the accumulators, the last one finishes the score), and where the output
  window is idle (every step but the last).
-/
import proofs.«116962_j49649821942232_2_alg».proof.Proof.Gen.Kernel.Launch
import proofs.«116962_j49649821942232_2_alg».proof.Proof.Gen.Kernel.Skeleton
import proofs.«116962_j49649821942232_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host lines before the region, stretch by stretch. -/
abbrev prefixOps : List (List (HloOp τ sig (Elt F))) :=
  [hostOps0, hostOps0_1, hostOps0_2, hostOps0_3, hostOps0_4, hostOps0_5, hostOps0_6]

/-- Core `c`'s buffer contents when the region is entered: the launch contents run through the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is its host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host line writes a reference that is none of their results. -/
theorem V_of_not_written (c : Dev nD) (b : Ref sig .tc)
    (hb : ∀ op ∈ List.flatten (prefixOps (F := F)), Proc.devRef .tc b ∉ op.writes) :
    V m c b = m ((c : Thread nD τ).loc b) :=
  StableHlo.after_of_forall_not_mem (b := Proc.devRef .tc b) _ _ hb

/-- No host line before the region writes argument 0: the region finds it as launched. -/
theorem V_main_arg0 (c : Dev nD) : V m c main_arg0 = m ((c : Thread nD τ).loc main_arg0) :=
  V_of_not_written m c main_arg0 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  V_of_not_written m c main_arg1 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  V_of_not_written m c main_arg2 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  V_of_not_written m c main_arg3 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  V_of_not_written m c main_arg4 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  V_of_not_written m c main_arg5 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  V_of_not_written m c main_arg6 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  V_of_not_written m c main_arg7 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  V_of_not_written m c main_arg8 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  V_of_not_written m c main_arg9 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  V_of_not_written m c main_arg10 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched the block index has not moved), for any proof data over the entry contents whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is
    not fetched the block index has not moved), for any proof data over the entry contents whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is
    not fetched the block index has not moved), for any proof data over the entry contents whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is
    not fetched the block index has not moved), for any proof data over the entry contents whose body leaves the
    block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is
    not fetched the block index has not moved), for any proof data over the entry contents whose body leaves the
    block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Every argument array is a buffer no window stages, so a frame run leaves it at its entry contents, which are the
    launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's branch conditions -/

/-- The first branch (`pl.when(e == 0)`): the step along the contraction axis is the first. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch (`pl.when(e == 15)`): the step is the last. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last step the body stores nothing into the output window, -/
theorem idleAt0_5 : ∀ t : Fin cfg0.N, ¬cond0_1 (grid0.coords t) → cfg0.idle 5 (grid0.coords t) = true := by decide +kernel
/-- and the pipeline does not write its block back there; -/
theorem noFlush0_5 : ∀ t : Fin cfg0.N, ¬cond0_1 (grid0.coords t) → (cfg0.win 5).flush t = false := by decide +kernel
/-- at the last step it does store. -/
theorem liveAt0_5 : ∀ t : Fin cfg0.N, cond0_1 (grid0.coords t) → cfg0.idle 5 (grid0.coords t) = false := by decide +kernel

/-! ## The memrefs the body is called with -/

abbrev VO0_5 : View sig .tc .vmem S512x1 .f32 := (Memref.whole cc0_stg5_0 : Memref sig .tc .vmem S512x1 .f32).view
abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x500 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S500x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The three accumulators: whole scoped buffers of the kernel's own. -/
abbrev scM0_0 : Memref sig .tc .vmem S512x1024 .f32 := Memref.whole cc0_scratch0
abbrev scM0_1 : Memref sig .tc .vmem S512x1024 .f32 := Memref.whole cc0_scratch1
abbrev scM0_2 : Memref sig .tc .vmem S512x1024 .f32 := Memref.whole cc0_scratch2
abbrev VS0_0 : View sig .tc .vmem S512x1024 .f32 := scM0_0.view
abbrev VS0_1 : View sig .tc .vmem S512x1024 .f32 := scM0_1.view
abbrev VS0_2 : View sig .tc .vmem S512x1024 .f32 := scM0_2.view

/-- The class invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunFirst.lean ====
/-
  The body at a FIRST step along the contraction axis (`e = 0`, not the last): it resets the two entity
  accumulators to zero, fills the relation accumulator with the row norm times the relation projections, then
  adds the step's two products into the entity accumulators. The output window is left as found. What each
  accumulator ends with is recorded as the list of its stores, last first.
-/
import proofs.«116962_j49649821942232_2_alg».proof.Proof.K.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs at their blocks, the output at anything it is handed, the accumulators at anything:
    the body runs, and hands back the inputs and the output untouched and each accumulator with its stores written. -/
noncomputable def kernelRunFirst (c : Dev nD) (i : grid0.Coords) (arg2 : Memref sig .tc .vmem S512x1280 .bf16) (harg2 : arg2.IsWhole) (arg3 : Memref sig .tc .vmem S512x1280 .bf16) (harg3 : arg3.IsWhole) (arg4 : Memref sig .tc .vmem S512x500 .bf16) (harg4 : arg4.IsWhole) (arg5 : Memref sig .tc .vmem S1280x1024 .bf16) (harg5 : arg5.IsWhole) (arg6 : Memref sig .tc .vmem S500x1024 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1280 .bf16) (x1 : Vec F S512x1280 .bf16) (x2 : Vec F S512x500 .bf16) (x3 : Vec F S1280x1024 .bf16) (x4 : Vec F S500x1024 .bf16) :
    Σ' (LS0 : List (View.Piece (Elt F) S512x1024 .f32)) (LS1 : List (View.Piece (Elt F) S512x1024 .f32)), { LS2 : List (View.Piece (Elt F) S512x1024 .f32) //
      ∀ (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.K.RunMid.lean ====
/-
  The body at a MIDDLE step along the contraction axis (neither first nor last): it adds the step's two products
  into the entity accumulators and touches nothing else.
-/
import proofs.«116962_j49649821942232_2_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs at their blocks, the output and the relation accumulator at what they are handed,
    the entity accumulators at what the step before left: the body runs, and hands everything back untouched but the
    two entity accumulators, each with its store written. -/
noncomputable def kernelRunMid (c : Dev nD) (i : grid0.Coords) (arg2 : Memref sig .tc .vmem S512x1280 .bf16) (harg2 : arg2.IsWhole) (arg3 : Memref sig .tc .vmem S512x1280 .bf16) (harg3 : arg3.IsWhole) (arg4 : Memref sig .tc .vmem S512x500 .bf16) (harg4 : arg4.IsWhole) (arg5 : Memref sig .tc .vmem S1280x1024 .bf16) (harg5 : arg5.IsWhole) (arg6 : Memref sig .tc .vmem S500x1024 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : ¬cond0_1 i)
    (x0 : Vec F S512x1280 .bf16) (x1 : Vec F S512x1280 .bf16) (x2 : Vec F S512x500 .bf16) (x3 : Vec F S1280x1024 .bf16) (x4 : Vec F S500x1024 .bf16) (xs0 : Vec F S512x1024 .f32) (xs1 : Vec F S512x1024 .f32) :
    Σ' (LS0 : List (View.Piece (Elt F) S512x1024 .f32)), { LS1 : List (View.Piece (Elt F) S512x1024 .f32) //
      ∀ (xi5 : Vec F S512x1 .f32) (xs2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, fun xi5 xs2 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; isplitr; · ipureintro; exact harg10.read_unread _
    iexact HS2

end Cert.Kernel.Hand

end
-- ==== Proof.K.RunLast.lean ====
/-
  The body at a LAST step along the contraction axis (`e = 15`): it adds the step's two products into the entity
  accumulators, then reads all three accumulators, forms the Hamilton product row by row, sums it against the tail
  projections, and stores the logistic of the score into the output window.
-/
import proofs.«116962_j49649821942232_2_alg».proof.Proof.K.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs at their blocks, the output at anything, the accumulators at what the step before
    left: the body runs, and hands back the inputs and the relation accumulator untouched, the entity accumulators and
    the output each with its store written. -/
noncomputable def kernelRunLast (c : Dev nD) (i : grid0.Coords) (arg2 : Memref sig .tc .vmem S512x1280 .bf16) (harg2 : arg2.IsWhole) (arg3 : Memref sig .tc .vmem S512x1280 .bf16) (harg3 : arg3.IsWhole) (arg4 : Memref sig .tc .vmem S512x500 .bf16) (harg4 : arg4.IsWhole) (arg5 : Memref sig .tc .vmem S1280x1024 .bf16) (harg5 : arg5.IsWhole) (arg6 : Memref sig .tc .vmem S500x1024 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1280 .bf16) (x1 : Vec F S512x1280 .bf16) (x2 : Vec F S512x500 .bf16) (x3 : Vec F S1280x1024 .bf16) (x4 : Vec F S500x1024 .bf16) (xs0 : Vec F S512x1024 .f32) (xs1 : Vec F S512x1024 .f32) (xs2 : Vec F S512x1024 .f32) :
    Σ' (L5 : List (View.Piece (Elt F) S512x1 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; isplitr; · ipureintro; exact harg10.read_unread _
    iexact HS2

end Cert.Kernel.Hand

end
-- ==== Proof.K.Frame.lean ====
/-
  The frame of `Kernel`: what the three accumulators and the output window hold after each grid point (by
  recursion on the point: a first step along the contraction axis starts the accumulators afresh, a later one
  continues from what the step before left, the last one also writes the output block), the region's invariant
  (the accumulators at those contents), the proof data, the body's obligation at every point by cases on the step,
  and the run of @main: it terminates, nothing faults, and every argument array ends as launched.
-/
import proofs.«116962_j49649821942232_2_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point of the grid -/

/-- The body's run at a point that is a first step, on the point's memrefs and input blocks. -/
def firstAt (c : Dev nD) (t : Fin cfg0.N) (hc0 : cond0_0 (grid0.coords t)) (hc1 : ¬cond0_1 (grid0.coords t)) :=
  kernelRunFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t)
/-- At a middle step, over what the step before left in the two entity accumulators. -/
def midAt (c : Dev nD) (t : Fin cfg0.N) (hc0 : ¬cond0_0 (grid0.coords t)) (hc1 : ¬cond0_1 (grid0.coords t)) (xs0 xs1 : Vec F S512x1024 .f32) :=
  kernelRunMid (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) xs0 xs1
/-- At a last step, over what the step before left in all three accumulators. -/
def lastAt (c : Dev nD) (t : Fin cfg0.N) (hc0 : ¬cond0_0 (grid0.coords t)) (hc1 : cond0_1 (grid0.coords t)) (xs0 xs1 xs2 : Vec F S512x1024 .f32) :=
  kernelRunLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) xs0 xs1 xs2

/-! ## Each case's stores cover what they are read back from -/

theorem scoverFirst_0 (c : Dev nD) (t : Fin cfg0.N) (hc0 : cond0_0 (grid0.coords t)) (hc1 : ¬cond0_1 (grid0.coords t)) (y : S512x1024.Idx) :
    ∃ pc ∈ (firstAt m c t hc0 hc1).1, y ∈ pc.1.set :=
  View.cover_of_tiledL (firstAt m c t hc0 hc1).1 S512x1024.size (by sl_kernel_rfl) y
theorem scoverFirst_1 (c : Dev nD) (t : Fin cfg0.N) (hc0 : cond0_0 (grid0.coords t)) (hc1 : ¬cond0_1 (grid0.coords t)) (y : S512x1024.Idx) :
    ∃ pc ∈ (firstAt m c t hc0 hc1).2.1, y ∈ pc.1.set :=
  View.cover_of_tiledL (firstAt m c t hc0 hc1).2.1 S512x1024.size (by sl_kernel_rfl) y
theorem scoverFirst_2 (c : Dev nD) (t : Fin cfg0.N) (hc0 : cond0_0 (grid0.coords t)) (hc1 : ¬cond0_1 (grid0.coords t)) (y : S512x1024.Idx) :
    ∃ pc ∈ (firstAt m c t hc0 hc1).2.2.1, y ∈ pc.1.set :=
  View.cover_of_tiledL (firstAt m c t hc0 hc1).2.2.1 S512x1024.size (by sl_kernel_rfl) y
theorem scoverMid_0 (c : Dev nD) (t : Fin cfg0.N) (hc0 : ¬cond0_0 (grid0.coords t)) (hc1 : ¬cond0_1 (grid0.coords t)) (xs0 xs1 : Vec F S512x1024 .f32) (y : S512x1024.Idx) :
    ∃ pc ∈ (midAt m c t hc0 hc1 xs0 xs1).1, y ∈ pc.1.set :=
  View.cover_of_tiledL (midAt m c t hc0 hc1 xs0 xs1).1 S512x1024.size (by sl_kernel_rfl) y
theorem scoverMid_1 (c : Dev nD) (t : Fin cfg0.N) (hc0 : ¬cond0_0 (grid0.coords t)) (hc1 : ¬cond0_1 (grid0.coords t)) (xs0 xs1 : Vec F S512x1024 .f32) (y : S512x1024.Idx) :
    ∃ pc ∈ (midAt m c t hc0 hc1 xs0 xs1).2.1, y ∈ pc.1.set :=
  View.cover_of_tiledL (midAt m c t hc0 hc1 xs0 xs1).2.1 S512x1024.size (by sl_kernel_rfl) y
theorem coverLast_5 (c : Dev nD) (t : Fin cfg0.N) (hc0 : ¬cond0_0 (grid0.coords t)) (hc1 : cond0_1 (grid0.coords t)) (xs0 xs1 xs2 : Vec F S512x1024 .f32) (y : S512x1.Idx) :
    ∃ pc ∈ (lastAt m c t hc0 hc1 xs0 xs1 xs2).1, y ∈ pc.1.set :=
  View.cover_of_tiledL (lastAt m c t hc0 hc1 xs0 xs1 xs2).1 S512x1.size (by sl_kernel_rfl) y
theorem scoverLast_0 (c : Dev nD) (t : Fin cfg0.N) (hc0 : ¬cond0_0 (grid0.coords t)) (hc1 : cond0_1 (grid0.coords t)) (xs0 xs1 xs2 : Vec F S512x1024 .f32) (y : S512x1024.Idx) :
    ∃ pc ∈ (lastAt m c t hc0 hc1 xs0 xs1 xs2).2.1, y ∈ pc.1.set :=
  View.cover_of_tiledL (lastAt m c t hc0 hc1 xs0 xs1 xs2).2.1 S512x1024.size (by sl_kernel_rfl) y
theorem scoverLast_1 (c : Dev nD) (t : Fin cfg0.N) (hc0 : ¬cond0_0 (grid0.coords t)) (hc1 : cond0_1 (grid0.coords t)) (xs0 xs1 xs2 : Vec F S512x1024 .f32) (y : S512x1024.Idx) :
    ∃ pc ∈ (lastAt m c t hc0 hc1 xs0 xs1 xs2).2.2.1, y ∈ pc.1.set :=
  View.cover_of_tiledL (lastAt m c t hc0 hc1 xs0 xs1 xs2).2.2.1 S512x1024.size (by sl_kernel_rfl) y

/-! ## What a list of stores leaves: read back over junk -/

/-- An accumulator's contents after the stores `L` (last first), where they cover it. -/
def accOf (L : List (View.Piece (Elt F) S512x1024 .f32)) : Vec F S512x1024 .f32 := VS0_0.read (Elt F) (VS0_0.writes (Elt F) VS0_0.junk L)
/-- The output block after the stores `L`. -/
def outOf (L : List (View.Piece (Elt F) S512x1 .f32)) : Vec F S512x1 .f32 := VO0_5.read (Elt F) (VO0_5.writes (Elt F) VO0_5.junk L)

/-! ## What the output window and the accumulators hold after each point -/

/-- After the body at position `n`: the output window's buffer, then the head, tail and relation accumulators.
    A first step (`n ≡ 0 mod 16`) starts from nothing; a middle step continues the two entity accumulators and keeps
    the relation one; the last step (`n ≡ 15`) also stores the output block. Away from a last step the output
    component is a placeholder nothing consults (the window is idle there and not written back). -/
def outsAt0 (c : Dev nD) : (n : ℕ) → n < cfg0.N → Vec F S512x1 .f32 × Vec F S512x1024 .f32 × Vec F S512x1024 .f32 × Vec F S512x1024 .f32
  | 0, hn =>
    have hc0 : cond0_0 (grid0.coords ⟨0, hn⟩) := (hcond0_0 ⟨0, hn⟩).mpr (Nat.zero_mod _)
    have hc1 : ¬cond0_1 (grid0.coords ⟨0, hn⟩) := fun h => (fun h => by (try dsimp only at h); omega) ((hcond0_1 ⟨0, hn⟩).mp h)
    (outOf [], accOf (firstAt m c ⟨0, hn⟩ hc0 hc1).1, accOf (firstAt m c ⟨0, hn⟩ hc0 hc1).2.1, accOf (firstAt m c ⟨0, hn⟩ hc0 hc1).2.2.1)
  | n + 1, hn =>
    if h0 : (n + 1) % 16 = 0 then
      if h1 : (n + 1) % 16 = 15 then
        False.elim (by omega)
      else
        have hc0 : cond0_0 (grid0.coords ⟨n + 1, hn⟩) := (hcond0_0 ⟨n + 1, hn⟩).mpr h0
        have hc1 : ¬cond0_1 (grid0.coords ⟨n + 1, hn⟩) := fun h => h1 ((hcond0_1 ⟨n + 1, hn⟩).mp h)
        (outOf [], accOf (firstAt m c ⟨n + 1, hn⟩ hc0 hc1).1, accOf (firstAt m c ⟨n + 1, hn⟩ hc0 hc1).2.1, accOf (firstAt m c ⟨n + 1, hn⟩ hc0 hc1).2.2.1)
    else
      have hc0 : ¬cond0_0 (grid0.coords ⟨n + 1, hn⟩) := fun h => h0 ((hcond0_0 ⟨n + 1, hn⟩).mp h)
      if h1 : (n + 1) % 16 = 15 then
        have hc1 : cond0_1 (grid0.coords ⟨n + 1, hn⟩) := (hcond0_1 ⟨n + 1, hn⟩).mpr h1
        (outOf (lastAt m c ⟨n + 1, hn⟩ hc0 hc1 (outsAt0 c n (Nat.lt_of_succ_lt hn)).2.1 (outsAt0 c n (Nat.lt_of_succ_lt hn)).2.2.1 (outsAt0 c n (Nat.lt_of_succ_lt hn)).2.2.2).1,
         accOf (lastAt m c ⟨n + 1, hn⟩ hc0 hc1 (outsAt0 c n (Nat.lt_of_succ_lt hn)).2.1 (outsAt0 c n (Nat.lt_of_succ_lt hn)).2.2.1 (outsAt0 c n (Nat.lt_of_succ_lt hn)).2.2.2).2.1,
         accOf (lastAt m c ⟨n + 1, hn⟩ hc0 hc1 (outsAt0 c n (Nat.lt_of_succ_lt hn)).2.1 (outsAt0 c n (Nat.lt_of_succ_lt hn)).2.2.1 (outsAt0 c n (Nat.lt_of_succ_lt hn)).2.2.2).2.2.1,
         (outsAt0 c n (Nat.lt_of_succ_lt hn)).2.2.2)
      else
        have hc1 : ¬cond0_1 (grid0.coords ⟨n + 1, hn⟩) := fun h => h1 ((hcond0_1 ⟨n + 1, hn⟩).mp h)
        (outOf [],
         accOf (midAt m c ⟨n + 1, hn⟩ hc0 hc1 (outsAt0 c n (Nat.lt_of_succ_lt hn)).2.1 (outsAt0 c n (Nat.lt_of_succ_lt hn)).2.2.1).1,
         accOf (midAt m c ⟨n + 1, hn⟩ hc0 hc1 (outsAt0 c n (Nat.lt_of_succ_lt hn)).2.1 (outsAt0 c n (Nat.lt_of_succ_lt hn)).2.2.1).2.1,
         (outsAt0 c n (Nat.lt_of_succ_lt hn)).2.2.2)

/-- What the point before `t` left (any point but the first of the grid). -/
abbrev prevAt (c : Dev nD) (t : Fin cfg0.N) : Vec F S512x1 .f32 × Vec F S512x1024 .f32 × Vec F S512x1024 .f32 × Vec F S512x1024 .f32 :=
  outsAt0 m c (t.val - 1) (Nat.lt_of_le_of_lt (Nat.sub_le _ _) t.isLt)

/-- `outsAt0` at a first step. -/
theorem outsAt0_First (c : Dev nD) (t : Fin cfg0.N) (h0 : t.val % 16 = 0) (h1 : ¬t.val % 16 = 15) :
    outsAt0 m c t.val t.isLt = (outOf [], accOf (firstAt m c t ((hcond0_0 t).mpr h0) (fun h => h1 ((hcond0_1 t).mp h))).1,
      accOf (firstAt m c t ((hcond0_0 t).mpr h0) (fun h => h1 ((hcond0_1 t).mp h))).2.1,
      accOf (firstAt m c t ((hcond0_0 t).mpr h0) (fun h => h1 ((hcond0_1 t).mp h))).2.2.1) := by
  obtain ⟨n, hn⟩ := t
  cases n with
  | zero => exact rfl
  | succ n => exact (dif_pos h0).trans ((dif_neg h1).trans rfl)

/-- `outsAt0` at a middle step: over what the point before left. -/
theorem outsAt0_Mid (c : Dev nD) (t : Fin cfg0.N) (h0 : ¬t.val % 16 = 0) (h1 : ¬t.val % 16 = 15) :
    outsAt0 m c t.val t.isLt = (outOf [],
      accOf (midAt m c t (fun h => h0 ((hcond0_0 t).mp h)) (fun h => h1 ((hcond0_1 t).mp h)) (prevAt m c t).2.1 (prevAt m c t).2.2.1).1,
      accOf (midAt m c t (fun h => h0 ((hcond0_0 t).mp h)) (fun h => h1 ((hcond0_1 t).mp h)) (prevAt m c t).2.1 (prevAt m c t).2.2.1).2.1,
      (prevAt m c t).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step: over what the point before left. -/
theorem outsAt0_Last (c : Dev nD) (t : Fin cfg0.N) (h0 : ¬t.val % 16 = 0) (h1 : t.val % 16 = 15) :
    outsAt0 m c t.val t.isLt = (outOf (lastAt m c t (fun h => h0 ((hcond0_0 t).mp h)) ((hcond0_1 t).mpr h1) (prevAt m c t).2.1 (prevAt m c t).2.2.1 (prevAt m c t).2.2.2).1,
      accOf (lastAt m c t (fun h => h0 ((hcond0_0 t).mp h)) ((hcond0_1 t).mpr h1) (prevAt m c t).2.1 (prevAt m c t).2.2.1 (prevAt m c t).2.2.2).2.1,
      accOf (lastAt m c t (fun h => h0 ((hcond0_0 t).mp h)) ((hcond0_1 t).mpr h1) (prevAt m c t).2.1 (prevAt m c t).2.2.1 (prevAt m c t).2.2.2).2.2.1,
      (prevAt m c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the accumulators hold anything; afterwards each holds what the point
    before left in it; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer at its block, the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' memrefs hold their blocks; the step along the contraction axis says which
    case the point is in; the invariant hands the body the accumulators at what the point before left (at anything
    where a first step overwrites them whole) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt (show cfg0.N = 64 from N_0)
  by_cases h0 : t.val % 16 = 0
  · have h1 : ¬t.val % 16 = 15 := by omega
    rw [Dat.leavesExact_idle (dats m 0 c) 5 t (idleAt0_5 t (fun h => h1 ((hcond0_1 t).mp h))) (noFlush0_5 t (fun h => h1 ((hcond0_1 t).mp h)))]
    rw [outsAt0_First m c t h0 h1]
    unfold accOf; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((firstAt m c t ((hcond0_0 t).mpr h0) (fun h => h1 ((hcond0_1 t).mp h))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverFirst_0 m c t _ _)
          isplitl [HS1]
          · unfold owns; iexists _; isplitr
            swap; · iexact HS1
            ipureintro; exact View.read_writes_of_cover _ _ _ _ _ (scoverFirst_1 m c t _ _)
          unfold owns; iexists _; isplitr
          swap; · iexact HS2
          ipureintro; exact View.read_writes_of_cover _ _ _ _ _ (scoverFirst_2 m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((firstAt m c t ((hcond0_0 t).mpr h0) (fun h => h1 ((hcond0_1 t).mp h))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverFirst_0 m c t _ _)
          isplitl [HS1]
          · unfold owns; iexists _; isplitr
            swap; · iexact HS1
            ipureintro; exact View.read_writes_of_cover _ _ _ _ _ (scoverFirst_1 m c t _ _)
          unfold owns; iexists _; isplitr
          swap; · iexact HS2
          ipureintro; exact View.read_writes_of_cover _ _ _ _ _ (scoverFirst_2 m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_Last m c t h0 h1]
      unfold accOf outOf; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((lastAt m c t (fun h => h0 ((hcond0_0 t).mp h)) ((hcond0_1 t).mpr h1) _ _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scoverLast_0 m c t _ _ _ _ _)
          isplitl [HS1]
          · unfold owns; iexists _; isplitr
            swap; · iexact HS1
            ipureintro; exact View.read_writes_of_cover _ _ _ _ _ (scoverLast_1 m c t _ _ _ _ _)
          iexact HS2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast_5 m c t _ _ _ _ _)
    · rw [Dat.leavesExact_idle (dats m 0 c) 5 t (idleAt0_5 t (fun h => h1 ((hcond0_1 t).mp h))) (noFlush0_5 t (fun h => h1 ((hcond0_1 t).mp h)))]
      rw [outsAt0_Mid m c t h0 h1]
      unfold accOf; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((midAt m c t (fun h => h0 ((hcond0_0 t).mp h)) (fun h => h1 ((hcond0_1 t).mp h)) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scoverMid_0 m c t _ _ _ _)
          isplitl [HS1]
          · unfold owns; iexists _; isplitr
            swap; · iexact HS1
            ipureintro; exact View.read_writes_of_cover _ _ _ _ _ (scoverMid_1 m c t _ _ _ _)
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the accumulators' named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, nothing faulting, with every array of the pipeline at what the
    library computes from the proof data and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Hand

end
-- ==== Proof.KI.Around.lean ====
/-
  The region's surroundings for `KernelIdeal`: what every buffer holds when the one pallas_call is entered (the host
  lines before it pad, concatenate, transpose and change format; none writes an argument array), @main as those
  lines followed by the region, each window's block at a grid point read off the entry contents, the two branch
  conditions of the body in closed form over the 4 × 16 grid (the step along the contraction axis is the point
  number mod 16: the first step resets the accumulators, the last one finishes the score), and where the output
  window is idle (every step but the last).
-/
import proofs.«116962_j49649821942232_2_alg».proof.Proof.Gen.KernelIdeal.Launch
import proofs.«116962_j49649821942232_2_alg».proof.Proof.Gen.KernelIdeal.Skeleton
import proofs.«116962_j49649821942232_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host lines before the region, stretch by stretch. -/
abbrev prefixOps : List (List (HloOp τ sig (Elt F))) :=
  [hostOps0, hostOps0_1, hostOps0_2, hostOps0_3, hostOps0_4, hostOps0_5, hostOps0_6]

/-- Core `c`'s buffer contents when the region is entered: the launch contents run through the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is its host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host line writes a reference that is none of their results. -/
theorem V_of_not_written (c : Dev nD) (b : Ref sig .tc)
    (hb : ∀ op ∈ List.flatten (prefixOps (F := F)), Proc.devRef .tc b ∉ op.writes) :
    V m c b = m ((c : Thread nD τ).loc b) :=
  StableHlo.after_of_forall_not_mem (b := Proc.devRef .tc b) _ _ hb

/-- No host line before the region writes argument 0: the region finds it as launched. -/
theorem V_main_arg0 (c : Dev nD) : V m c main_arg0 = m ((c : Thread nD τ).loc main_arg0) :=
  V_of_not_written m c main_arg0 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  V_of_not_written m c main_arg1 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  V_of_not_written m c main_arg2 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  V_of_not_written m c main_arg3 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  V_of_not_written m c main_arg4 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  V_of_not_written m c main_arg5 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  V_of_not_written m c main_arg6 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  V_of_not_written m c main_arg7 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  V_of_not_written m c main_arg8 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  V_of_not_written m c main_arg9 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  V_of_not_written m c main_arg10 (List.forall_iff_forall_mem.mp (by
    simp only [prefixOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched the block index has not moved), for any proof data over the entry contents whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is
    not fetched the block index has not moved), for any proof data over the entry contents whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is
    not fetched the block index has not moved), for any proof data over the entry contents whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is
    not fetched the block index has not moved), for any proof data over the entry contents whose body leaves the
    block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is
    not fetched the block index has not moved), for any proof data over the entry contents whose body leaves the
    block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Every argument array is a buffer no window stages, so a frame run leaves it at its entry contents, which are the
    launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's branch conditions -/

/-- The first branch (`pl.when(e == 0)`): the step along the contraction axis is the first. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch (`pl.when(e == 15)`): the step is the last. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last step the body stores nothing into the output window, -/
theorem idleAt0_5 : ∀ t : Fin cfg0.N, ¬cond0_1 (grid0.coords t) → cfg0.idle 5 (grid0.coords t) = true := by decide +kernel
/-- and the pipeline does not write its block back there; -/
theorem noFlush0_5 : ∀ t : Fin cfg0.N, ¬cond0_1 (grid0.coords t) → (cfg0.win 5).flush t = false := by decide +kernel
/-- at the last step it does store. -/
theorem liveAt0_5 : ∀ t : Fin cfg0.N, cond0_1 (grid0.coords t) → cfg0.idle 5 (grid0.coords t) = false := by decide +kernel

/-! ## The memrefs the body is called with -/

abbrev VO0_5 : View sig .tc .vmem S512x1 .f32 := (Memref.whole cc0_stg5_0 : Memref sig .tc .vmem S512x1 .f32).view
abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x500 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S500x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The three accumulators: whole scoped buffers of the kernel's own. -/
abbrev scM0_0 : Memref sig .tc .vmem S512x1024 .f32 := Memref.whole cc0_scratch0
abbrev scM0_1 : Memref sig .tc .vmem S512x1024 .f32 := Memref.whole cc0_scratch1
abbrev scM0_2 : Memref sig .tc .vmem S512x1024 .f32 := Memref.whole cc0_scratch2
abbrev VS0_0 : View sig .tc .vmem S512x1024 .f32 := scM0_0.view
abbrev VS0_1 : View sig .tc .vmem S512x1024 .f32 := scM0_1.view
abbrev VS0_2 : View sig .tc .vmem S512x1024 .f32 := scM0_2.view

/-- The class invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunFirst.lean ====
/-
  The body at a FIRST step along the contraction axis (`e = 0`, not the last): it resets the two entity
  accumulators to zero, fills the relation accumulator with the row norm times the relation projections, then
  adds the step's two products into the entity accumulators. The output window is left as found. What each
  accumulator ends with is recorded as the list of its stores, last first.
-/
import proofs.«116962_j49649821942232_2_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs at their blocks, the output at anything it is handed, the accumulators at anything:
    the body runs, and hands back the inputs and the output untouched and each accumulator with its stores written. -/
noncomputable def kernelRunFirst (c : Dev nD) (i : grid0.Coords) (arg2 : Memref sig .tc .vmem S512x1280 .bf16) (harg2 : arg2.IsWhole) (arg3 : Memref sig .tc .vmem S512x1280 .bf16) (harg3 : arg3.IsWhole) (arg4 : Memref sig .tc .vmem S512x500 .bf16) (harg4 : arg4.IsWhole) (arg5 : Memref sig .tc .vmem S1280x1024 .bf16) (harg5 : arg5.IsWhole) (arg6 : Memref sig .tc .vmem S500x1024 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1280 .bf16) (x1 : Vec F S512x1280 .bf16) (x2 : Vec F S512x500 .bf16) (x3 : Vec F S1280x1024 .bf16) (x4 : Vec F S500x1024 .bf16) :
    Σ' (LS0 : List (View.Piece (Elt F) S512x1024 .f32)) (LS1 : List (View.Piece (Elt F) S512x1024 .f32)), { LS2 : List (View.Piece (Elt F) S512x1024 .f32) //
      ∀ (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KI.RunMid.lean ====
/-
  The body at a MIDDLE step along the contraction axis (neither first nor last): it adds the step's two products
  into the entity accumulators and touches nothing else.
-/
import proofs.«116962_j49649821942232_2_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs at their blocks, the output and the relation accumulator at what they are handed,
    the entity accumulators at what the step before left: the body runs, and hands everything back untouched but the
    two entity accumulators, each with its store written. -/
noncomputable def kernelRunMid (c : Dev nD) (i : grid0.Coords) (arg2 : Memref sig .tc .vmem S512x1280 .bf16) (harg2 : arg2.IsWhole) (arg3 : Memref sig .tc .vmem S512x1280 .bf16) (harg3 : arg3.IsWhole) (arg4 : Memref sig .tc .vmem S512x500 .bf16) (harg4 : arg4.IsWhole) (arg5 : Memref sig .tc .vmem S1280x1024 .bf16) (harg5 : arg5.IsWhole) (arg6 : Memref sig .tc .vmem S500x1024 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : ¬cond0_1 i)
    (x0 : Vec F S512x1280 .bf16) (x1 : Vec F S512x1280 .bf16) (x2 : Vec F S512x500 .bf16) (x3 : Vec F S1280x1024 .bf16) (x4 : Vec F S500x1024 .bf16) (xs0 : Vec F S512x1024 .f32) (xs1 : Vec F S512x1024 .f32) :
    Σ' (LS0 : List (View.Piece (Elt F) S512x1024 .f32)), { LS1 : List (View.Piece (Elt F) S512x1024 .f32) //
      ∀ (xi5 : Vec F S512x1 .f32) (xs2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, fun xi5 xs2 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; isplitr; · ipureintro; exact harg10.read_unread _
    iexact HS2

end Cert.KernelIdeal.Hand

end
-- ==== Proof.KI.RunLast.lean ====
/-
  The body at a LAST step along the contraction axis (`e = 15`): it adds the step's two products into the entity
  accumulators, then reads all three accumulators, forms the Hamilton product row by row, sums it against the tail
  projections, and stores the logistic of the score into the output window.
-/
import proofs.«116962_j49649821942232_2_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs at their blocks, the output at anything, the accumulators at what the step before
    left: the body runs, and hands back the inputs and the relation accumulator untouched, the entity accumulators and
    the output each with its store written. -/
noncomputable def kernelRunLast (c : Dev nD) (i : grid0.Coords) (arg2 : Memref sig .tc .vmem S512x1280 .bf16) (harg2 : arg2.IsWhole) (arg3 : Memref sig .tc .vmem S512x1280 .bf16) (harg3 : arg3.IsWhole) (arg4 : Memref sig .tc .vmem S512x500 .bf16) (harg4 : arg4.IsWhole) (arg5 : Memref sig .tc .vmem S1280x1024 .bf16) (harg5 : arg5.IsWhole) (arg6 : Memref sig .tc .vmem S500x1024 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1280 .bf16) (x1 : Vec F S512x1280 .bf16) (x2 : Vec F S512x500 .bf16) (x3 : Vec F S1280x1024 .bf16) (x4 : Vec F S500x1024 .bf16) (xs0 : Vec F S512x1024 .f32) (xs1 : Vec F S512x1024 .f32) (xs2 : Vec F S512x1024 .f32) :
    Σ' (L5 : List (View.Piece (Elt F) S512x1 .f32)) (LS0 : List (View.Piece (Elt F) S512x1024 .f32)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; isplitr; · ipureintro; exact harg10.read_unread _
    iexact HS2

end Cert.KernelIdeal.Hand

end
-- ==== Proof.KI.Frame.lean ====
/-
  The frame of `KernelIdeal`: what the three accumulators and the output window hold after each grid point (by
  recursion on the point: a first step along the contraction axis starts the accumulators afresh, a later one
  continues from what the step before left, the last one also writes the output block), the region's invariant
  (the accumulators at those contents), the proof data, the body's obligation at every point by cases on the step,
  and the run of @main: it terminates, nothing faults, and every argument array ends as launched.
-/
import proofs.«116962_j49649821942232_2_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point of the grid -/

/-- The body's run at a point that is a first step, on the point's memrefs and input blocks. -/
def firstAt (c : Dev nD) (t : Fin cfg0.N) (hc0 : cond0_0 (grid0.coords t)) (hc1 : ¬cond0_1 (grid0.coords t)) :=
  kernelRunFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t)
/-- At a middle step, over what the step before left in the two entity accumulators. -/
def midAt (c : Dev nD) (t : Fin cfg0.N) (hc0 : ¬cond0_0 (grid0.coords t)) (hc1 : ¬cond0_1 (grid0.coords t)) (xs0 xs1 : Vec F S512x1024 .f32) :=
  kernelRunMid (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) xs0 xs1
/-- At a last step, over what the step before left in all three accumulators. -/
def lastAt (c : Dev nD) (t : Fin cfg0.N) (hc0 : ¬cond0_0 (grid0.coords t)) (hc1 : cond0_1 (grid0.coords t)) (xs0 xs1 xs2 : Vec F S512x1024 .f32) :=
  kernelRunLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) xs0 xs1 xs2

/-! ## Each case's stores cover what they are read back from -/

theorem scoverFirst_0 (c : Dev nD) (t : Fin cfg0.N) (hc0 : cond0_0 (grid0.coords t)) (hc1 : ¬cond0_1 (grid0.coords t)) (y : S512x1024.Idx) :
    ∃ pc ∈ (firstAt m c t hc0 hc1).1, y ∈ pc.1.set :=
  View.cover_of_tiledL (firstAt m c t hc0 hc1).1 S512x1024.size (by sl_kernel_rfl) y
theorem scoverFirst_1 (c : Dev nD) (t : Fin cfg0.N) (hc0 : cond0_0 (grid0.coords t)) (hc1 : ¬cond0_1 (grid0.coords t)) (y : S512x1024.Idx) :
    ∃ pc ∈ (firstAt m c t hc0 hc1).2.1, y ∈ pc.1.set :=
  View.cover_of_tiledL (firstAt m c t hc0 hc1).2.1 S512x1024.size (by sl_kernel_rfl) y
theorem scoverFirst_2 (c : Dev nD) (t : Fin cfg0.N) (hc0 : cond0_0 (grid0.coords t)) (hc1 : ¬cond0_1 (grid0.coords t)) (y : S512x1024.Idx) :
    ∃ pc ∈ (firstAt m c t hc0 hc1).2.2.1, y ∈ pc.1.set :=
  View.cover_of_tiledL (firstAt m c t hc0 hc1).2.2.1 S512x1024.size (by sl_kernel_rfl) y
theorem scoverMid_0 (c : Dev nD) (t : Fin cfg0.N) (hc0 : ¬cond0_0 (grid0.coords t)) (hc1 : ¬cond0_1 (grid0.coords t)) (xs0 xs1 : Vec F S512x1024 .f32) (y : S512x1024.Idx) :
    ∃ pc ∈ (midAt m c t hc0 hc1 xs0 xs1).1, y ∈ pc.1.set :=
  View.cover_of_tiledL (midAt m c t hc0 hc1 xs0 xs1).1 S512x1024.size (by sl_kernel_rfl) y
theorem scoverMid_1 (c : Dev nD) (t : Fin cfg0.N) (hc0 : ¬cond0_0 (grid0.coords t)) (hc1 : ¬cond0_1 (grid0.coords t)) (xs0 xs1 : Vec F S512x1024 .f32) (y : S512x1024.Idx) :
    ∃ pc ∈ (midAt m c t hc0 hc1 xs0 xs1).2.1, y ∈ pc.1.set :=
  View.cover_of_tiledL (midAt m c t hc0 hc1 xs0 xs1).2.1 S512x1024.size (by sl_kernel_rfl) y
theorem coverLast_5 (c : Dev nD) (t : Fin cfg0.N) (hc0 : ¬cond0_0 (grid0.coords t)) (hc1 : cond0_1 (grid0.coords t)) (xs0 xs1 xs2 : Vec F S512x1024 .f32) (y : S512x1.Idx) :
    ∃ pc ∈ (lastAt m c t hc0 hc1 xs0 xs1 xs2).1, y ∈ pc.1.set :=
  View.cover_of_tiledL (lastAt m c t hc0 hc1 xs0 xs1 xs2).1 S512x1.size (by sl_kernel_rfl) y
theorem scoverLast_0 (c : Dev nD) (t : Fin cfg0.N) (hc0 : ¬cond0_0 (grid0.coords t)) (hc1 : cond0_1 (grid0.coords t)) (xs0 xs1 xs2 : Vec F S512x1024 .f32) (y : S512x1024.Idx) :
    ∃ pc ∈ (lastAt m c t hc0 hc1 xs0 xs1 xs2).2.1, y ∈ pc.1.set :=
  View.cover_of_tiledL (lastAt m c t hc0 hc1 xs0 xs1 xs2).2.1 S512x1024.size (by sl_kernel_rfl) y
theorem scoverLast_1 (c : Dev nD) (t : Fin cfg0.N) (hc0 : ¬cond0_0 (grid0.coords t)) (hc1 : cond0_1 (grid0.coords t)) (xs0 xs1 xs2 : Vec F S512x1024 .f32) (y : S512x1024.Idx) :
    ∃ pc ∈ (lastAt m c t hc0 hc1 xs0 xs1 xs2).2.2.1, y ∈ pc.1.set :=
  View.cover_of_tiledL (lastAt m c t hc0 hc1 xs0 xs1 xs2).2.2.1 S512x1024.size (by sl_kernel_rfl) y

/-! ## What a list of stores leaves: read back over junk -/

/-- An accumulator's contents after the stores `L` (last first), where they cover it. -/
def accOf (L : List (View.Piece (Elt F) S512x1024 .f32)) : Vec F S512x1024 .f32 := VS0_0.read (Elt F) (VS0_0.writes (Elt F) VS0_0.junk L)
/-- The output block after the stores `L`. -/
def outOf (L : List (View.Piece (Elt F) S512x1 .f32)) : Vec F S512x1 .f32 := VO0_5.read (Elt F) (VO0_5.writes (Elt F) VO0_5.junk L)

/-! ## What the output window and the accumulators hold after each point -/

/-- After the body at position `n`: the output window's buffer, then the head, tail and relation accumulators.
    A first step (`n ≡ 0 mod 16`) starts from nothing; a middle step continues the two entity accumulators and keeps
    the relation one; the last step (`n ≡ 15`) also stores the output block. Away from a last step the output
    component is a placeholder nothing consults (the window is idle there and not written back). -/
def outsAt0 (c : Dev nD) : (n : ℕ) → n < cfg0.N → Vec F S512x1 .f32 × Vec F S512x1024 .f32 × Vec F S512x1024 .f32 × Vec F S512x1024 .f32
  | 0, hn =>
    have hc0 : cond0_0 (grid0.coords ⟨0, hn⟩) := (hcond0_0 ⟨0, hn⟩).mpr (Nat.zero_mod _)
    have hc1 : ¬cond0_1 (grid0.coords ⟨0, hn⟩) := fun h => (fun h => by (try dsimp only at h); omega) ((hcond0_1 ⟨0, hn⟩).mp h)
    (outOf [], accOf (firstAt m c ⟨0, hn⟩ hc0 hc1).1, accOf (firstAt m c ⟨0, hn⟩ hc0 hc1).2.1, accOf (firstAt m c ⟨0, hn⟩ hc0 hc1).2.2.1)
  | n + 1, hn =>
    if h0 : (n + 1) % 16 = 0 then
      if h1 : (n + 1) % 16 = 15 then
        False.elim (by omega)
      else
        have hc0 : cond0_0 (grid0.coords ⟨n + 1, hn⟩) := (hcond0_0 ⟨n + 1, hn⟩).mpr h0
        have hc1 : ¬cond0_1 (grid0.coords ⟨n + 1, hn⟩) := fun h => h1 ((hcond0_1 ⟨n + 1, hn⟩).mp h)
        (outOf [], accOf (firstAt m c ⟨n + 1, hn⟩ hc0 hc1).1, accOf (firstAt m c ⟨n + 1, hn⟩ hc0 hc1).2.1, accOf (firstAt m c ⟨n + 1, hn⟩ hc0 hc1).2.2.1)
    else
      have hc0 : ¬cond0_0 (grid0.coords ⟨n + 1, hn⟩) := fun h => h0 ((hcond0_0 ⟨n + 1, hn⟩).mp h)
      if h1 : (n + 1) % 16 = 15 then
        have hc1 : cond0_1 (grid0.coords ⟨n + 1, hn⟩) := (hcond0_1 ⟨n + 1, hn⟩).mpr h1
        (outOf (lastAt m c ⟨n + 1, hn⟩ hc0 hc1 (outsAt0 c n (Nat.lt_of_succ_lt hn)).2.1 (outsAt0 c n (Nat.lt_of_succ_lt hn)).2.2.1 (outsAt0 c n (Nat.lt_of_succ_lt hn)).2.2.2).1,
         accOf (lastAt m c ⟨n + 1, hn⟩ hc0 hc1 (outsAt0 c n (Nat.lt_of_succ_lt hn)).2.1 (outsAt0 c n (Nat.lt_of_succ_lt hn)).2.2.1 (outsAt0 c n (Nat.lt_of_succ_lt hn)).2.2.2).2.1,
         accOf (lastAt m c ⟨n + 1, hn⟩ hc0 hc1 (outsAt0 c n (Nat.lt_of_succ_lt hn)).2.1 (outsAt0 c n (Nat.lt_of_succ_lt hn)).2.2.1 (outsAt0 c n (Nat.lt_of_succ_lt hn)).2.2.2).2.2.1,
         (outsAt0 c n (Nat.lt_of_succ_lt hn)).2.2.2)
      else
        have hc1 : ¬cond0_1 (grid0.coords ⟨n + 1, hn⟩) := fun h => h1 ((hcond0_1 ⟨n + 1, hn⟩).mp h)
        (outOf [],
         accOf (midAt m c ⟨n + 1, hn⟩ hc0 hc1 (outsAt0 c n (Nat.lt_of_succ_lt hn)).2.1 (outsAt0 c n (Nat.lt_of_succ_lt hn)).2.2.1).1,
         accOf (midAt m c ⟨n + 1, hn⟩ hc0 hc1 (outsAt0 c n (Nat.lt_of_succ_lt hn)).2.1 (outsAt0 c n (Nat.lt_of_succ_lt hn)).2.2.1).2.1,
         (outsAt0 c n (Nat.lt_of_succ_lt hn)).2.2.2)

/-- What the point before `t` left (any point but the first of the grid). -/
abbrev prevAt (c : Dev nD) (t : Fin cfg0.N) : Vec F S512x1 .f32 × Vec F S512x1024 .f32 × Vec F S512x1024 .f32 × Vec F S512x1024 .f32 :=
  outsAt0 m c (t.val - 1) (Nat.lt_of_le_of_lt (Nat.sub_le _ _) t.isLt)

/-- `outsAt0` at a first step. -/
theorem outsAt0_First (c : Dev nD) (t : Fin cfg0.N) (h0 : t.val % 16 = 0) (h1 : ¬t.val % 16 = 15) :
    outsAt0 m c t.val t.isLt = (outOf [], accOf (firstAt m c t ((hcond0_0 t).mpr h0) (fun h => h1 ((hcond0_1 t).mp h))).1,
      accOf (firstAt m c t ((hcond0_0 t).mpr h0) (fun h => h1 ((hcond0_1 t).mp h))).2.1,
      accOf (firstAt m c t ((hcond0_0 t).mpr h0) (fun h => h1 ((hcond0_1 t).mp h))).2.2.1) := by
  obtain ⟨n, hn⟩ := t
  cases n with
  | zero => exact rfl
  | succ n => exact (dif_pos h0).trans ((dif_neg h1).trans rfl)

/-- `outsAt0` at a middle step: over what the point before left. -/
theorem outsAt0_Mid (c : Dev nD) (t : Fin cfg0.N) (h0 : ¬t.val % 16 = 0) (h1 : ¬t.val % 16 = 15) :
    outsAt0 m c t.val t.isLt = (outOf [],
      accOf (midAt m c t (fun h => h0 ((hcond0_0 t).mp h)) (fun h => h1 ((hcond0_1 t).mp h)) (prevAt m c t).2.1 (prevAt m c t).2.2.1).1,
      accOf (midAt m c t (fun h => h0 ((hcond0_0 t).mp h)) (fun h => h1 ((hcond0_1 t).mp h)) (prevAt m c t).2.1 (prevAt m c t).2.2.1).2.1,
      (prevAt m c t).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step: over what the point before left. -/
theorem outsAt0_Last (c : Dev nD) (t : Fin cfg0.N) (h0 : ¬t.val % 16 = 0) (h1 : t.val % 16 = 15) :
    outsAt0 m c t.val t.isLt = (outOf (lastAt m c t (fun h => h0 ((hcond0_0 t).mp h)) ((hcond0_1 t).mpr h1) (prevAt m c t).2.1 (prevAt m c t).2.2.1 (prevAt m c t).2.2.2).1,
      accOf (lastAt m c t (fun h => h0 ((hcond0_0 t).mp h)) ((hcond0_1 t).mpr h1) (prevAt m c t).2.1 (prevAt m c t).2.2.1 (prevAt m c t).2.2.2).2.1,
      accOf (lastAt m c t (fun h => h0 ((hcond0_0 t).mp h)) ((hcond0_1 t).mpr h1) (prevAt m c t).2.1 (prevAt m c t).2.2.1 (prevAt m c t).2.2.2).2.2.1,
      (prevAt m c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the accumulators hold anything; afterwards each holds what the point
    before left in it; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer at its block, the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' memrefs hold their blocks; the step along the contraction axis says which
    case the point is in; the invariant hands the body the accumulators at what the point before left (at anything
    where a first step overwrites them whole) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt (show cfg0.N = 64 from N_0)
  by_cases h0 : t.val % 16 = 0
  · have h1 : ¬t.val % 16 = 15 := by omega
    rw [Dat.leavesExact_idle (dats m 0 c) 5 t (idleAt0_5 t (fun h => h1 ((hcond0_1 t).mp h))) (noFlush0_5 t (fun h => h1 ((hcond0_1 t).mp h)))]
    rw [outsAt0_First m c t h0 h1]
    unfold accOf; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((firstAt m c t ((hcond0_0 t).mpr h0) (fun h => h1 ((hcond0_1 t).mp h))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverFirst_0 m c t _ _)
          isplitl [HS1]
          · unfold owns; iexists _; isplitr
            swap; · iexact HS1
            ipureintro; exact View.read_writes_of_cover _ _ _ _ _ (scoverFirst_1 m c t _ _)
          unfold owns; iexists _; isplitr
          swap; · iexact HS2
          ipureintro; exact View.read_writes_of_cover _ _ _ _ _ (scoverFirst_2 m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((firstAt m c t ((hcond0_0 t).mpr h0) (fun h => h1 ((hcond0_1 t).mp h))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverFirst_0 m c t _ _)
          isplitl [HS1]
          · unfold owns; iexists _; isplitr
            swap; · iexact HS1
            ipureintro; exact View.read_writes_of_cover _ _ _ _ _ (scoverFirst_1 m c t _ _)
          unfold owns; iexists _; isplitr
          swap; · iexact HS2
          ipureintro; exact View.read_writes_of_cover _ _ _ _ _ (scoverFirst_2 m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_Last m c t h0 h1]
      unfold accOf outOf; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((lastAt m c t (fun h => h0 ((hcond0_0 t).mp h)) ((hcond0_1 t).mpr h1) _ _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scoverLast_0 m c t _ _ _ _ _)
          isplitl [HS1]
          · unfold owns; iexists _; isplitr
            swap; · iexact HS1
            ipureintro; exact View.read_writes_of_cover _ _ _ _ _ (scoverLast_1 m c t _ _ _ _ _)
          iexact HS2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast_5 m c t _ _ _ _ _)
    · rw [Dat.leavesExact_idle (dats m 0 c) 5 t (idleAt0_5 t (fun h => h1 ((hcond0_1 t).mp h))) (noFlush0_5 t (fun h => h1 ((hcond0_1 t).mp h)))]
      rw [outsAt0_Mid m c t h0 h1]
      unfold accOf; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((midAt m c t (fun h => h0 ((hcond0_0 t).mp h)) (fun h => h1 ((hcond0_1 t).mp h)) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scoverMid_0 m c t _ _ _ _)
          isplitl [HS1]
          · unfold owns; iexists _; isplitr
            swap; · iexact HS1
            ipureintro; exact View.read_writes_of_cover _ _ _ _ _ (scoverMid_1 m c t _ _ _ _)
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the accumulators' named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, nothing faulting, with every array of the pipeline at what the
    library computes from the proof data and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Hand

end
-- ==== Proof.KI.Pieces.lean ====
/-
  What each case of the body leaves, read back as values: a first step leaves the step's product added to the zero
  block in each entity accumulator and the scaled relation projections in the third; a later step leaves the product
  added to what the step before left; the last step also leaves, in the output block, the logistic of the score formed
  from the three accumulators as they stand after that addition. Each is the payload of the one covering store, its
  loads reading whole buffers.
-/
import proofs.«116962_j49649821942232_2_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- An accumulator holding `x` whole reads back `x`. -/
theorem scr_read_0 (h : (Memref.whole cc0_scratch0 : Memref sig .tc .vmem S512x1024 .f32).IsWhole) (x : Vec F S512x1024 .f32) :
    View.read (Elt F) (View.whole cc0_scratch0) (h.unread x) = x := h.read_unread x
theorem scr_read_1 (h : (Memref.whole cc0_scratch1 : Memref sig .tc .vmem S512x1024 .f32).IsWhole) (x : Vec F S512x1024 .f32) :
    View.read (Elt F) (View.whole cc0_scratch1) (h.unread x) = x := h.read_unread x
theorem scr_read_2 (h : (Memref.whole cc0_scratch2 : Memref sig .tc .vmem S512x1024 .f32).IsWhole) (x : Vec F S512x1024 .f32) :
    View.read (Elt F) (View.whole cc0_scratch2) (h.unread x) = x := h.read_unread x

/-! ## A middle step -/

theorem mid_0 (c : Dev nD) (t : Fin cfg0.N) (hc0 : ¬cond0_0 (grid0.coords t)) (hc1 : ¬cond0_1 (grid0.coords t)) (xs0 xs1 : Vec F S512x1024 .f32) :
    accOf (midAt m c t hc0 hc1 xs0 xs1).1 = k0_pay5 (iblk m c 0 t) (iblk m c 3 t) xs0 := by
  unfold accOf
  rw [View.read_writes_eq_canon _ _ _ (scoverMid_0 m c t hc0 hc1 xs0 xs1)]
  unfold midAt kernelRunMid
  dsimp only
  rw [View.canon_unit_zero hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

theorem mid_1 (c : Dev nD) (t : Fin cfg0.N) (hc0 : ¬cond0_0 (grid0.coords t)) (hc1 : ¬cond0_1 (grid0.coords t)) (xs0 xs1 : Vec F S512x1024 .f32) :
    accOf (midAt m c t hc0 hc1 xs0 xs1).2.1 = k0_pay6 (iblk m c 1 t) (iblk m c 3 t) xs1 := by
  unfold accOf
  rw [View.read_writes_eq_canon _ _ _ (scoverMid_1 m c t hc0 hc1 xs0 xs1)]
  unfold midAt kernelRunMid
  dsimp only
  rw [View.canon_unit_zero hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

/-! ## A first step -/

theorem first_0 (c : Dev nD) (t : Fin cfg0.N) (hc0 : cond0_0 (grid0.coords t)) (hc1 : ¬cond0_1 (grid0.coords t)) :
    accOf (firstAt m c t hc0 hc1).1 = k0_pay5 (iblk m c 0 t) (iblk m c 3 t) (k0_pay1 (F := F)) := by
  unfold accOf
  rw [View.read_writes_eq_canon _ _ _ (scoverFirst_0 m c t hc0 hc1)]
  unfold firstAt kernelRunFirst
  dsimp only
  sl_unfold_words
  rw [View.canon_cons_unit_zero (S := S512x1024) hz, View.readCov_unit_zero (S := S512x1024) _ hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

theorem first_1 (c : Dev nD) (t : Fin cfg0.N) (hc0 : cond0_0 (grid0.coords t)) (hc1 : ¬cond0_1 (grid0.coords t)) :
    accOf (firstAt m c t hc0 hc1).2.1 = k0_pay6 (iblk m c 1 t) (iblk m c 3 t) (k0_pay2 (F := F)) := by
  unfold accOf
  rw [View.read_writes_eq_canon _ _ _ (scoverFirst_1 m c t hc0 hc1)]
  unfold firstAt kernelRunFirst
  dsimp only
  sl_unfold_words
  rw [View.canon_cons_unit_zero (S := S512x1024) hz, View.readCov_unit_zero (S := S512x1024) _ hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

theorem first_2 (c : Dev nD) (t : Fin cfg0.N) (hc0 : cond0_0 (grid0.coords t)) (hc1 : ¬cond0_1 (grid0.coords t)) :
    accOf (firstAt m c t hc0 hc1).2.2.1 = k0_pay3 (iblk m c 2 t) (iblk m c 4 t) := by
  unfold accOf
  rw [View.read_writes_eq_canon _ _ _ (scoverFirst_2 m c t hc0 hc1)]
  unfold firstAt kernelRunFirst
  dsimp only
  sl_unfold_words
  rw [View.canon_unit_zero hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

/-! ## A last step -/

theorem last_0 (c : Dev nD) (t : Fin cfg0.N) (hc0 : ¬cond0_0 (grid0.coords t)) (hc1 : cond0_1 (grid0.coords t)) (xs0 xs1 xs2 : Vec F S512x1024 .f32) :
    accOf (lastAt m c t hc0 hc1 xs0 xs1 xs2).2.1 = k0_pay5 (iblk m c 0 t) (iblk m c 3 t) xs0 := by
  unfold accOf
  rw [View.read_writes_eq_canon _ _ _ (scoverLast_0 m c t hc0 hc1 xs0 xs1 xs2)]
  unfold lastAt kernelRunLast
  dsimp only
  sl_unfold_words
  rw [View.canon_unit_zero hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

theorem last_1 (c : Dev nD) (t : Fin cfg0.N) (hc0 : ¬cond0_0 (grid0.coords t)) (hc1 : cond0_1 (grid0.coords t)) (xs0 xs1 xs2 : Vec F S512x1024 .f32) :
    accOf (lastAt m c t hc0 hc1 xs0 xs1 xs2).2.2.1 = k0_pay6 (iblk m c 1 t) (iblk m c 3 t) xs1 := by
  unfold accOf
  rw [View.read_writes_eq_canon _ _ _ (scoverLast_1 m c t hc0 hc1 xs0 xs1 xs2)]
  unfold lastAt kernelRunLast
  dsimp only
  sl_unfold_words
  rw [View.canon_unit_zero hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

theorem last_5 (c : Dev nD) (t : Fin cfg0.N) (hc0 : ¬cond0_0 (grid0.coords t)) (hc1 : cond0_1 (grid0.coords t)) (xs0 xs1 xs2 : Vec F S512x1024 .f32) :
    outOf (lastAt m c t hc0 hc1 xs0 xs1 xs2).1
      = k0_pay7 (k0_pay5 (iblk m c 0 t) (iblk m c 3 t) xs0) (k0_pay6 (iblk m c 1 t) (iblk m c 3 t) xs1) xs2 := by
  unfold outOf
  rw [View.read_writes_eq_canon _ _ _ (coverLast_5 m c t hc0 hc1 xs0 xs1 xs2)]
  unfold lastAt kernelRunLast
  dsimp only
  sl_unfold_words
  rw [View.canon_unit_zero hz, View.readCov_unit_zero (S := S512x1024) _ hz, View.readCov_unit_zero (S := S512x1024) _ hz]
  simp only [View.readAt_eq_ld, Memref.IsWhole.read_unread, View.ld_unit_zero (S := S512x1280) hz, View.ld_unit_zero (S := S1280x1024) hz, View.ld_unit_zero (S := S512x1024) hz, View.ld_unit_zero (S := S512x500) hz, View.ld_unit_zero (S := S500x1024) hz, scr_read_0, scr_read_1, scr_read_2]

end Cert.KernelIdeal.Hand

end
-- ==== Proof.KI.Accum.lean ====
/-
  The accumulators point by point, as payloads: at a first step along the contraction axis the head (tail)
  accumulator is the step's product added to the zero block and the relation accumulator the scaled relation
  projections; at every later step the head (tail) accumulator is the step's product added to what the step before
  left and the relation accumulator is unchanged; at a last step the output block is the logistic of the score
  formed from the three accumulators as they then stand.
-/
import proofs.«116962_j49649821942232_2_alg».proof.Proof.KI.Pieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The head, tail and relation accumulators and the output block after point `t`. -/
abbrev acc0 (c : Dev nD) (t : Fin cfg0.N) : Vec F S512x1024 .f32 := (outsAt0 m c t.val t.isLt).2.1
abbrev acc1 (c : Dev nD) (t : Fin cfg0.N) : Vec F S512x1024 .f32 := (outsAt0 m c t.val t.isLt).2.2.1
abbrev acc2 (c : Dev nD) (t : Fin cfg0.N) : Vec F S512x1024 .f32 := (outsAt0 m c t.val t.isLt).2.2.2
abbrev outB (c : Dev nD) (t : Fin cfg0.N) : Vec F S512x1 .f32 := (outsAt0 m c t.val t.isLt).1

theorem acc0_first (c : Dev nD) (t : Fin cfg0.N) (h0 : t.val % 16 = 0) :
    acc0 m c t = k0_pay5 (iblk m c 0 t) (iblk m c 3 t) (k0_pay1 (F := F)) := by
  have h1 : ¬t.val % 16 = 15 := by omega
  show (outsAt0 m c t.val t.isLt).2.1 = _
  rw [outsAt0_First m c t h0 h1]
  dsimp only
  rw [first_0]

theorem acc1_first (c : Dev nD) (t : Fin cfg0.N) (h0 : t.val % 16 = 0) :
    acc1 m c t = k0_pay6 (iblk m c 1 t) (iblk m c 3 t) (k0_pay2 (F := F)) := by
  have h1 : ¬t.val % 16 = 15 := by omega
  show (outsAt0 m c t.val t.isLt).2.2.1 = _
  rw [outsAt0_First m c t h0 h1]
  dsimp only
  rw [first_1]

theorem acc2_first (c : Dev nD) (t : Fin cfg0.N) (h0 : t.val % 16 = 0) :
    acc2 m c t = k0_pay3 (iblk m c 2 t) (iblk m c 4 t) := by
  have h1 : ¬t.val % 16 = 15 := by omega
  show (outsAt0 m c t.val t.isLt).2.2.2 = _
  rw [outsAt0_First m c t h0 h1]
  dsimp only
  rw [first_2]

theorem acc0_step (c : Dev nD) (t : Fin cfg0.N) (h0 : ¬t.val % 16 = 0) :
    acc0 m c t = k0_pay5 (iblk m c 0 t) (iblk m c 3 t) (prevAt m c t).2.1 := by
  show (outsAt0 m c t.val t.isLt).2.1 = _
  by_cases h1 : t.val % 16 = 15
  · rw [outsAt0_Last m c t h0 h1]; dsimp only; rw [last_0]
  · rw [outsAt0_Mid m c t h0 h1]; dsimp only; rw [mid_0]

theorem acc1_step (c : Dev nD) (t : Fin cfg0.N) (h0 : ¬t.val % 16 = 0) :
    acc1 m c t = k0_pay6 (iblk m c 1 t) (iblk m c 3 t) (prevAt m c t).2.2.1 := by
  show (outsAt0 m c t.val t.isLt).2.2.1 = _
  by_cases h1 : t.val % 16 = 15
  · rw [outsAt0_Last m c t h0 h1]; dsimp only; rw [last_1]
  · rw [outsAt0_Mid m c t h0 h1]; dsimp only; rw [mid_1]

theorem acc2_step (c : Dev nD) (t : Fin cfg0.N) (h0 : ¬t.val % 16 = 0) :
    acc2 m c t = (prevAt m c t).2.2.2 := by
  show (outsAt0 m c t.val t.isLt).2.2.2 = _
  by_cases h1 : t.val % 16 = 15
  · rw [outsAt0_Last m c t h0 h1]
  · rw [outsAt0_Mid m c t h0 h1]

theorem out_last (c : Dev nD) (t : Fin cfg0.N) (h1 : t.val % 16 = 15) :
    outB m c t = k0_pay7 (acc0 m c t) (acc1 m c t) (acc2 m c t) := by
  have h0 : ¬t.val % 16 = 0 := by omega
  show (outsAt0 m c t.val t.isLt).1 = k0_pay7 (outsAt0 m c t.val t.isLt).2.1 (outsAt0 m c t.val t.isLt).2.2.1 (outsAt0 m c t.val t.isLt).2.2.2
  rw [outsAt0_Last m c t h0 h1]
  dsimp only
  rw [last_5, last_0, last_1]

end Cert.KernelIdeal.Hand

end
-- ==== Proof.KI.Blocks.lean ====
/-
  The windows' blocks read off the arrays the region finds. Point `t` of the 4 × 16 grid is batch tile `t / 16` and
  contraction step `t % 16`: the head and tail windows hold rows `512 (t/16) + p`, columns `1280 (t%16) + k` of the
  padded head / tail arrays; the relation window rows `512 (t/16) + p` of the relation array; the entity-weight window
  rows `1280 (t%16) + k` of the padded, stacked, transposed weights; the relation-weight window the whole stacked,
  transposed relation weights; the output window rows `512 (t/16) + p` of the result column.
-/
import proofs.«116962_j49649821942232_2_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps, decided once over the grid. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

theorem t_lt (t : Fin cfg0.N) : t.val < 64 := lt_of_lt_of_eq t.isLt (show cfg0.N = 64 from N_0)

/-- Row `p` of the batch tile of point `t`, in the whole batch. -/
def rowOf (t : Fin cfg0.N) (p : Fin 512) : Fin 2048 := ⟨t.val / 16 * 512 + p.val, by have := t_lt t; have := p.isLt; omega⟩
/-- Column `k` of the contraction step of point `t`, in the padded contraction axis. -/
def colOf (t : Fin cfg0.N) (k : Fin 1280) : Fin 20480 := ⟨t.val % 16 * 1280 + k.val, by have := k.isLt; omega⟩

open Idealize.ShloMosaic.ValueIdx in
theorem iblk0_apply (c : Dev nD) (t : Fin cfg0.N) (p : Fin 512) (k : Fin 1280) :
    (iblk m c 0 t : Vec F S512x1280 .bf16) (ix2 p k) = (V m c main_v1 : S2048x20480.Idx → Elt F .bf16) (ix2 (rowOf t p) (colOf t k)) := by
  obtain ⟨e0, e1, -⟩ := idx_facts t
  unfold iblk
  rw [View.read_apply]
  show V m c main_v1 _ = V m c main_v1 _
  congr 1
  funext a; apply Fin.ext
  match a with
  | ⟨0, _⟩ => show win0_0.index t (0 : Fin 2) * 512 + 1 * p.val = t.val / 16 * 512 + p.val; rw [e0]; omega
  | ⟨1, _⟩ => show win0_0.index t (1 : Fin 2) * 1280 + 1 * k.val = t.val % 16 * 1280 + k.val; rw [e1]; omega

open Idealize.ShloMosaic.ValueIdx in
theorem iblk1_apply (c : Dev nD) (t : Fin cfg0.N) (p : Fin 512) (k : Fin 1280) :
    (iblk m c 1 t : Vec F S512x1280 .bf16) (ix2 p k) = (V m c main_v3 : S2048x20480.Idx → Elt F .bf16) (ix2 (rowOf t p) (colOf t k)) := by
  obtain ⟨-, -, e0, e1, -⟩ := idx_facts t
  unfold iblk
  rw [View.read_apply]
  show V m c main_v3 _ = V m c main_v3 _
  congr 1
  funext a; apply Fin.ext
  match a with
  | ⟨0, _⟩ => show win0_1.index t (0 : Fin 2) * 512 + 1 * p.val = t.val / 16 * 512 + p.val; rw [e0]; omega
  | ⟨1, _⟩ => show win0_1.index t (1 : Fin 2) * 1280 + 1 * k.val = t.val % 16 * 1280 + k.val; rw [e1]; omega

open Idealize.ShloMosaic.ValueIdx in
theorem iblk2_apply (c : Dev nD) (t : Fin cfg0.N) (p : Fin 512) (k : Fin 500) :
    (iblk m c 2 t : Vec F S512x500 .bf16) (ix2 p k) = (V m c main_v4 : S2048x500.Idx → Elt F .bf16) (ix2 (rowOf t p) k) := by
  obtain ⟨-, -, -, -, e0, e1, -⟩ := idx_facts t
  unfold iblk
  rw [View.read_apply]
  show V m c main_v4 _ = V m c main_v4 _
  congr 1
  funext a; apply Fin.ext
  match a with
  | ⟨0, _⟩ => show win0_2.index t (0 : Fin 2) * 512 + 1 * p.val = t.val / 16 * 512 + p.val; rw [e0]; omega
  | ⟨1, _⟩ => show win0_2.index t (1 : Fin 2) * 500 + 1 * k.val = k.val; rw [e1]; omega

open Idealize.ShloMosaic.ValueIdx in
theorem iblk3_apply (c : Dev nD) (t : Fin cfg0.N) (k : Fin 1280) (q : Fin 1024) :
    (iblk m c 3 t : Vec F S1280x1024 .bf16) (ix2 k q) = (V m c main_v8 : S20480x1024.Idx → Elt F .bf16) (ix2 (colOf t k) q) := by
  obtain ⟨-, -, -, -, -, -, e0, e1, -⟩ := idx_facts t
  unfold iblk
  rw [View.read_apply]
  show V m c main_v8 _ = V m c main_v8 _
  congr 1
  funext a; apply Fin.ext
  match a with
  | ⟨0, _⟩ => show win0_3.index t (0 : Fin 2) * 1280 + 1 * k.val = t.val % 16 * 1280 + k.val; rw [e0]; omega
  | ⟨1, _⟩ => show win0_3.index t (1 : Fin 2) * 1024 + 1 * q.val = q.val; rw [e1]; omega

open Idealize.ShloMosaic.ValueIdx in
theorem iblk4_apply (c : Dev nD) (t : Fin cfg0.N) (k : Fin 500) (q : Fin 1024) :
    (iblk m c 4 t : Vec F S500x1024 .bf16) (ix2 k q) = (V m c main_v11 : S500x1024.Idx → Elt F .bf16) (ix2 k q) := by
  obtain ⟨-, -, -, -, -, -, -, -, e0, e1, -⟩ := idx_facts t
  unfold iblk
  rw [View.read_apply]
  show V m c main_v11 _ = V m c main_v11 _
  congr 1
  funext a; apply Fin.ext
  match a with
  | ⟨0, _⟩ => show win0_4.index t (0 : Fin 2) * 500 + 1 * k.val = k.val; rw [e0]; omega
  | ⟨1, _⟩ => show win0_4.index t (1 : Fin 2) * 1024 + 1 * q.val = q.val; rw [e1]; omega

end Cert.KernelIdeal.Hand

end
-- ==== Proof.PayZero.lean ====
/-
  The two payloads that clear the accumulators: a splat of the float zero, cast to its own shape, reads 0 everywhere.
-/
import proofs.«116962_j49649821942232_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The cleared accumulator reads 0 at every entry. -/
theorem pay1_apply (p : Fin 512) (q : Fin 1024) : k0_pay1 (F := Ideal) (ix2 p q) = 0 := by
  unfold k0_pay1
  simp only [shapeCast_self, broadcast_apply]
  exact Ideal.ofBits_zero_f32

/-- The cleared accumulator reads 0 at every entry. -/
theorem pay2_apply (p : Fin 512) (q : Fin 1024) : k0_pay2 (F := Ideal) (ix2 p q) = 0 := by
  unfold k0_pay2
  simp only [shapeCast_self, broadcast_apply]
  exact Ideal.ofBits_zero_f32

end Cert.KernelIdeal.Payload

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.PayMatmul.lean ====
/-
  The two accumulating payloads: the accumulator plus the product of a [512, 1280] block with a [1280, 1024] block,
  the product taken into a zero accumulator, so at (p, q) it is the accumulator's entry plus Σ_k x[p, k] · w[k, q].
-/
import proofs.«116962_j49649821942232_2_alg».proof.Proof.Gen.KernelIdeal.Skeleton
import proofs.«116962_j49649821942232_2_alg».proof.Proof.LibPlainMatmul
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The accumulated block at (p, q). -/
theorem pay5_apply (x : Vec Ideal S512x1280 .bf16) (w : Vec Ideal S1280x1024 .bf16) (acc : Vec Ideal S512x1024 .f32)
    (p : Fin 512) (q : Fin 1024) :
    k0_pay5 (F := Ideal) x w acc (ix2 p q) = acc (ix2 p q) + ∑ k : Fin 1280, x (ix2 p k) * w (ix2 k q) := by
  unfold k0_pay5 k0_pay4
  simp only [shapeCast_self]
  refine congrArg (acc (ix2 p q) + ·) ?_
  exact matmul_plain_zero_apply 512 1280 1024 (φ₁ := .bf16) (φ₂ := .bf16) none x w p q

/-- The accumulated block at (p, q). -/
theorem pay6_apply (x : Vec Ideal S512x1280 .bf16) (w : Vec Ideal S1280x1024 .bf16) (acc : Vec Ideal S512x1024 .f32)
    (p : Fin 512) (q : Fin 1024) :
    k0_pay6 (F := Ideal) x w acc (ix2 p q) = acc (ix2 p q) + ∑ k : Fin 1280, x (ix2 p k) * w (ix2 k q) := by
  unfold k0_pay6 k0_pay4
  simp only [shapeCast_self]
  refine congrArg (acc (ix2 p q) + ·) ?_
  exact matmul_plain_zero_apply 512 1280 1024 (φ₁ := .bf16) (φ₂ := .bf16) none x w p q

end Cert.KernelIdeal.Payload

end
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.KI.Closed.lean ====
/-
  The two entity accumulators in closed form. One step's product, at row `b` of the batch and column `q` of the
  stacked projections, is the sum over the step's 1280 contraction indices of the padded row entry times the padded
  weight entry; after the point at step `e` of a tile the accumulator holds the total of the steps `0 … e` (the first
  step adds its product to the zero block, each later one to what the step before left): by induction on the point.
-/
import proofs.«116962_j49649821942232_2_alg».proof.Proof.KI.Accum
import proofs.«116962_j49649821942232_2_alg».proof.Proof.KI.Blocks
import proofs.«116962_j49649821942232_2_alg».proof.Proof.PayZero
import proofs.«116962_j49649821942232_2_alg».proof.Proof.PayMatmul
import proofs.«116962_j49649821942232_2_alg».proof.Proof.LibRunningTotal
import proofs.«116962_j49649821942232_2_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Closed

open Cert.KernelIdeal Cert.KernelIdeal.Gen Cert.KernelIdeal.Hand Cert.KernelIdeal.Payload
open Idealize.ShloMosaic Idealize.ShloMosaic.TcCoe Idealize.ShloMosaic.ValueIdx
open Idealize.SL.Sem

variable (m : (ℓ : Loc nD τ sig) → Buf (Elt Ideal) ℓ) (c : Dev nD)

/-- One step's product: row `b` of `X` against column `q` of `Wt`, over the 1280 contraction indices of step `e`. -/
def stepProd (X : S2048x20480.Idx → EReal) (Wt : S20480x1024.Idx → EReal) (b : Fin 2048) (e : Fin 16) (q : Fin 1024) : EReal :=
  ∑ k : Fin 1280, X (ix2 b (TileSum.idx (by norm_num : 16 * 1280 = 20480) e k)) * Wt (ix2 (TileSum.idx (by norm_num : 16 * 1280 = 20480) e k) q)

/-- The head accumulator after point `n`: the products of the steps of the point's tile up to the point's own. -/
theorem acc0_closed : ∀ (n : ℕ) (hn : n < cfg0.N) (p : Fin 512) (q : Fin 1024),
    acc0 m c ⟨n, hn⟩ (ix2 p q)
      = RunningTotal.upTo (fun e : Fin 16 => stepProd (V m c main_v1) (V m c main_v8) (rowOf ⟨n, hn⟩ p) e q) (n % 16) := by
  intro n
  induction n using Nat.strong_induction_on with
  | _ n ih =>
    intro hn p q
    have hN : n < 64 := lt_of_lt_of_eq hn (show cfg0.N = 64 from N_0)
    by_cases h0 : n % 16 = 0
    · rw [acc0_first m c ⟨n, hn⟩ h0]
      refine (pay5_apply (iblk m c 0 ⟨n, hn⟩) (iblk m c 3 ⟨n, hn⟩) (k0_pay1 (F := Ideal)) p q).trans ?_
      rw [pay1_apply, zero_add, h0, RunningTotal.upTo_zero _ (by norm_num)]
      unfold stepProd
      refine Finset.sum_congr rfl fun k _ => ?_
      rw [iblk0_apply, iblk3_apply]
      have hc : colOf ⟨n, hn⟩ k = TileSum.idx (by norm_num : 16 * 1280 = 20480) (⟨0, by norm_num⟩ : Fin 16) k :=
        Fin.ext (by show n % 16 * 1280 + k.val = 0 * 1280 + k.val; rw [h0])
      rw [hc]
    · have hn1 : n - 1 < cfg0.N := lt_of_le_of_lt (Nat.sub_le _ _) hn
      rw [acc0_step m c ⟨n, hn⟩ h0]
      refine (pay5_apply (iblk m c 0 ⟨n, hn⟩) (iblk m c 3 ⟨n, hn⟩) (prevAt m c ⟨n, hn⟩).2.1 p q).trans ?_
      have hprev : (prevAt m c ⟨n, hn⟩).2.1 (ix2 p q) = acc0 m c ⟨n - 1, hn1⟩ (ix2 p q) := rfl
      rw [hprev, ih (n - 1) (by omega) hn1 p q]
      obtain ⟨j, hj⟩ : ∃ j, n % 16 = j + 1 := ⟨n % 16 - 1, by omega⟩
      have hj1 : (n - 1) % 16 = j := by omega
      have hjlt : j + 1 < 16 := by omega
      have hrow : rowOf ⟨n - 1, hn1⟩ p = rowOf ⟨n, hn⟩ p := Fin.ext (by
        show (n - 1) / 16 * 512 + p.val = n / 16 * 512 + p.val
        have : (n - 1) / 16 = n / 16 := by omega
        rw [this])
      rw [hj1, hj, RunningTotal.upTo_succ _ j hjlt, hrow]
      refine congrArg₂ (· + ·) rfl ?_
      unfold stepProd
      refine Finset.sum_congr rfl fun k _ => ?_
      rw [iblk0_apply, iblk3_apply]
      have hc : colOf ⟨n, hn⟩ k = TileSum.idx (by norm_num : 16 * 1280 = 20480) (⟨j + 1, hjlt⟩ : Fin 16) k :=
        Fin.ext (by show n % 16 * 1280 + k.val = (j + 1) * 1280 + k.val; rw [hj])
      rw [hc]

/-- The tail accumulator after point `n`: the products of the steps of the point's tile up to the point's own. -/
theorem acc1_closed : ∀ (n : ℕ) (hn : n < cfg0.N) (p : Fin 512) (q : Fin 1024),
    acc1 m c ⟨n, hn⟩ (ix2 p q)
      = RunningTotal.upTo (fun e : Fin 16 => stepProd (V m c main_v3) (V m c main_v8) (rowOf ⟨n, hn⟩ p) e q) (n % 16) := by
  intro n
  induction n using Nat.strong_induction_on with
  | _ n ih =>
    intro hn p q
    have hN : n < 64 := lt_of_lt_of_eq hn (show cfg0.N = 64 from N_0)
    by_cases h0 : n % 16 = 0
    · rw [acc1_first m c ⟨n, hn⟩ h0]
      refine (pay6_apply (iblk m c 1 ⟨n, hn⟩) (iblk m c 3 ⟨n, hn⟩) (k0_pay2 (F := Ideal)) p q).trans ?_
      rw [pay2_apply, zero_add, h0, RunningTotal.upTo_zero _ (by norm_num)]
      unfold stepProd
      refine Finset.sum_congr rfl fun k _ => ?_
      rw [iblk1_apply, iblk3_apply]
      have hc : colOf ⟨n, hn⟩ k = TileSum.idx (by norm_num : 16 * 1280 = 20480) (⟨0, by norm_num⟩ : Fin 16) k :=
        Fin.ext (by show n % 16 * 1280 + k.val = 0 * 1280 + k.val; rw [h0])
      rw [hc]
    · have hn1 : n - 1 < cfg0.N := lt_of_le_of_lt (Nat.sub_le _ _) hn
      rw [acc1_step m c ⟨n, hn⟩ h0]
      refine (pay6_apply (iblk m c 1 ⟨n, hn⟩) (iblk m c 3 ⟨n, hn⟩) (prevAt m c ⟨n, hn⟩).2.2.1 p q).trans ?_
      have hprev : (prevAt m c ⟨n, hn⟩).2.2.1 (ix2 p q) = acc1 m c ⟨n - 1, hn1⟩ (ix2 p q) := rfl
      rw [hprev, ih (n - 1) (by omega) hn1 p q]
      obtain ⟨j, hj⟩ : ∃ j, n % 16 = j + 1 := ⟨n % 16 - 1, by omega⟩
      have hj1 : (n - 1) % 16 = j := by omega
      have hjlt : j + 1 < 16 := by omega
      have hrow : rowOf ⟨n - 1, hn1⟩ p = rowOf ⟨n, hn⟩ p := Fin.ext (by
        show (n - 1) / 16 * 512 + p.val = n / 16 * 512 + p.val
        have : (n - 1) / 16 = n / 16 := by omega
        rw [this])
      rw [hj1, hj, RunningTotal.upTo_succ _ j hjlt, hrow]
      refine congrArg₂ (· + ·) rfl ?_
      unfold stepProd
      refine Finset.sum_congr rfl fun k _ => ?_
      rw [iblk1_apply, iblk3_apply]
      have hc : colOf ⟨n, hn⟩ k = TileSum.idx (by norm_num : 16 * 1280 = 20480) (⟨j + 1, hjlt⟩ : Fin 16) k :=
        Fin.ext (by show n % 16 * 1280 + k.val = (j + 1) * 1280 + k.val; rw [hj])
      rw [hc]

end Cert.KernelIdeal.Closed

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.PayCol.lean ====
/-
  The 1024 columns of the kernel's wide arrays are four quarters of 256: column d of quarter s is column 256·s + d,
  and the quarters hold the real, i, j and k parts. A slice of 256 columns starting at column 256·s, read at (p, d),
  is the source array at (p, 256·s + d).
-/
import proofs.«116962_j49649821942232_2_alg».proof.Proof.LibTileSum
import Idealize.ShloMosaic.Lib.Pipeline.Value
import Idealize.ShloMosaic.Lib.ValueIdx

noncomputable section

namespace Cert.KernelIdeal.Payload

open Idealize.ShloMosaic Idealize.ShloMosaic.ValueIdx

/-- Column `d` of quarter `s` of the 1024 columns: 256·s + d. -/
def col (s : Fin 4) (d : Fin 256) : Fin 1024 := TileSum.idx (by norm_num : 4 * 256 = 1024) s d

theorem col_val (s : Fin 4) (d : Fin 256) : (col s d).val = s.val * 256 + d.val := rfl

variable {α : Type}

/-- The 256 columns from column 0, read at (p, d): the source at (p, column d of quarter 0). -/
theorem slice0_apply (x : (⟨2, ![512, 1024]⟩ : Shape).Idx → α)
    (h : (⟨2, ![512, 1024]⟩ : Shape).Slices ![0, 0] ⟨2, ![512, 256]⟩) (p : Fin 512) (d : Fin 256) :
    extractStridedSlice ⟨2, ![512, 256]⟩ ![0, 0] x h (ix2 p d) = x (ix2 p (col 0 d)) :=
  extractStridedSlice_apply _ x h _ _ fun a => by
    match a with
    | ⟨0, _⟩ => show p.val = 0 + p.val; omega
    | ⟨1, _⟩ => show (0 : ℕ) * 256 + d.val = 0 + d.val; omega

/-- The 256 columns from column 256, read at (p, d): the source at (p, column d of quarter 1). -/
theorem slice1_apply (x : (⟨2, ![512, 1024]⟩ : Shape).Idx → α)
    (h : (⟨2, ![512, 1024]⟩ : Shape).Slices ![0, 256] ⟨2, ![512, 256]⟩) (p : Fin 512) (d : Fin 256) :
    extractStridedSlice ⟨2, ![512, 256]⟩ ![0, 256] x h (ix2 p d) = x (ix2 p (col 1 d)) :=
  extractStridedSlice_apply _ x h _ _ fun a => by
    match a with
    | ⟨0, _⟩ => show p.val = 0 + p.val; omega
    | ⟨1, _⟩ => show (1 : ℕ) * 256 + d.val = 256 + d.val; omega

/-- The 256 columns from column 512, read at (p, d): the source at (p, column d of quarter 2). -/
theorem slice2_apply (x : (⟨2, ![512, 1024]⟩ : Shape).Idx → α)
    (h : (⟨2, ![512, 1024]⟩ : Shape).Slices ![0, 512] ⟨2, ![512, 256]⟩) (p : Fin 512) (d : Fin 256) :
    extractStridedSlice ⟨2, ![512, 256]⟩ ![0, 512] x h (ix2 p d) = x (ix2 p (col 2 d)) :=
  extractStridedSlice_apply _ x h _ _ fun a => by
    match a with
    | ⟨0, _⟩ => show p.val = 0 + p.val; omega
    | ⟨1, _⟩ => show (2 : ℕ) * 256 + d.val = 512 + d.val; omega

/-- The 256 columns from column 768, read at (p, d): the source at (p, column d of quarter 3). -/
theorem slice3_apply (x : (⟨2, ![512, 1024]⟩ : Shape).Idx → α)
    (h : (⟨2, ![512, 1024]⟩ : Shape).Slices ![0, 768] ⟨2, ![512, 256]⟩) (p : Fin 512) (d : Fin 256) :
    extractStridedSlice ⟨2, ![512, 256]⟩ ![0, 768] x h (ix2 p d) = x (ix2 p (col 3 d)) :=
  extractStridedSlice_apply _ x h _ _ fun a => by
    match a with
    | ⟨0, _⟩ => show p.val = 0 + p.val; omega
    | ⟨1, _⟩ => show (3 : ℕ) * 256 + d.val = 768 + d.val; omega

end Cert.KernelIdeal.Payload

end
-- ==== Proof.PayNorm.lean ====
/-
  The payload that scales the relation projections by the row's norm. The [512, 500] block times the [500, 1024]
  block is the array of the four relation projections side by side (quarter s of the columns is part s); the four
  quarters are squared and added left to right, summed along the 256 columns of a quarter, the square root taken on the
  column of row sums, and the column spread over all 1024 columns and multiplied into the product. So at
  (p, q) the payload is the square root of Σ_d' of the four squares at row p, times the product's entry (p, q).
-/
import proofs.«116962_j49649821942232_2_alg».proof.Proof.Gen.KernelIdeal.Skeleton
import proofs.«116962_j49649821942232_2_alg».proof.Proof.LibPlainMatmul
import proofs.«116962_j49649821942232_2_alg».proof.Proof.LibKeepdims
import proofs.«116962_j49649821942232_2_alg».proof.Proof.PayCol
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- Entry (p, q) of the relation block times the stacked relation weights: Σ_k x[p, k] · w[k, q]. -/
def relProj (x : Vec Ideal S512x500 .bf16) (w : Vec Ideal S500x1024 .bf16) (p : Fin 512) (q : Fin 1024) : EReal :=
  ∑ k : Fin 500, x (ix2 p k) * w (ix2 k q)

/-- The norm-scaling of a [512, 1024] array `M` whose row p reads `R`: at (p, q), the square root of the row's sum of
    the four quarters' squares, times `R q`. -/
theorem normScaled_apply (M : FVec Ideal S512x1024 .f32) (R : Fin 1024 → EReal) (p : Fin 512)
    (hM : ∀ q : Fin 1024, M (ix2 p q) = R q)
    (h0 : S512x1024.Slices ![0, 0] S512x256) (h1 : S512x1024.Slices ![0, 256] S512x256)
    (h2 : S512x1024.Slices ![0, 512] S512x256) (h3 : S512x1024.Slices ![0, 768] S512x256)
    (acc : BitVec 32) (hr : S512x256.Reduces [1] S512) (hφ : FKind.Formats .f32) (hacc : acc = FKind.add.neutral .f32 hφ)
    (hc : S512.ShapeCasts S512x1) (hb : S512x1.Broadcasts S512x1024) (q : Fin 1024) :
    mulf (broadcastTo S512x1024 (sqrt (shapeCast S512x1 (multiReduction .add [1] S512
      (addf (addf (addf
        (mulf (extractStridedSlice S512x256 ![0, 0] M h0) (extractStridedSlice S512x256 ![0, 0] M h0))
        (mulf (extractStridedSlice S512x256 ![0, 256] M h1) (extractStridedSlice S512x256 ![0, 256] M h1)))
        (mulf (extractStridedSlice S512x256 ![0, 512] M h2) (extractStridedSlice S512x256 ![0, 512] M h2)))
        (mulf (extractStridedSlice S512x256 ![0, 768] M h3) (extractStridedSlice S512x256 ![0, 768] M h3)))
      acc hr hφ hacc) hc)) hb) M (ix2 p q)
    = Ideal.sqrt (∑ d' : Fin 256, (R (col 0 d') * R (col 0 d') + R (col 1 d') * R (col 1 d') + R (col 2 d') * R (col 2 d') + R (col 3 d') * R (col 3 d'))) * R q := by
  refine (mulf_apply _ _ _).trans ?_
  refine congrArg₂ (· * ·) ?_ (hM q)
  refine (Cert.LibKeepdims.broadcastTo_a1_ab_apply _ hb p q 0).trans ?_
  refine congrArg Ideal.sqrt ?_
  refine (Cert.LibKeepdims.shapeCast_a_a1_apply _ hc p 0).trans ?_
  refine (Cert.LibKeepdims.multiReduction_add_lastAxis_apply _ acc hr hφ hacc p).trans ?_
  refine Finset.sum_congr rfl fun d' _ => ?_
  simp only [addf_apply, mulf_apply, slice0_apply, slice1_apply, slice2_apply, slice3_apply, hM]

/-- The scaled relation block at (p, column d of quarter s). -/
theorem pay3_apply (x : Vec Ideal S512x500 .bf16) (w : Vec Ideal S500x1024 .bf16) (p : Fin 512) (s : Fin 4) (d : Fin 256) :
    k0_pay3 (F := Ideal) x w (ix2 p (col s d))
      = Ideal.sqrt (∑ d' : Fin 256, (relProj x w p (col 0 d') * relProj x w p (col 0 d') + relProj x w p (col 1 d') * relProj x w p (col 1 d') + relProj x w p (col 2 d') * relProj x w p (col 2 d') + relProj x w p (col 3 d') * relProj x w p (col 3 d')))
        * relProj x w p (col s d) := by
  unfold k0_pay3
  simp only [shapeCast_self]
  exact normScaled_apply _ (relProj x w p) p
    (fun q => matmul_plain_zero_apply 512 500 1024 (φ₁ := .bf16) (φ₂ := .bf16) none x w p q) _ _ _ _ _ _ _ _ _ _ (col s d)

end Cert.KernelIdeal.Payload

end
-- ==== Proof.KI.ClosedRel.lean ====
/-
  The relation accumulator in closed form. It is filled once per batch tile, at the tile's first step, with the
  row's norm times the relation projections, and kept by every later step; the relation window's block depends on the
  tile only, so after ANY point of the tile it holds that product of the tile's rows: by induction on the point.
-/
import proofs.«116962_j49649821942232_2_alg».proof.Proof.KI.Accum
import proofs.«116962_j49649821942232_2_alg».proof.Proof.KI.Blocks
import proofs.«116962_j49649821942232_2_alg».proof.Proof.PayNorm
import proofs.«116962_j49649821942232_2_alg».proof.Proof.PayCol
import Idealize.ShloMosaic.Lib.Pipeline.Value
import Idealize.ShloMosaic.Lib.ValueIdx
import Idealize.ShloMosaic.PureOps.Ideal.Laws

set_option maxRecDepth 16384

noncomputable section

namespace Cert.KernelIdeal.Closed

open Cert.KernelIdeal Cert.KernelIdeal.Gen Cert.KernelIdeal.Hand Cert.KernelIdeal.Payload
open Idealize.ShloMosaic Idealize.ShloMosaic.TcCoe Idealize.ShloMosaic.ValueIdx
open Idealize.SL.Sem

variable (m : (ℓ : Loc nD τ sig) → Buf (Elt Ideal) ℓ) (c : Dev nD)

/-- The relation rows and the stacked, transposed relation weights as the region finds them. -/
abbrev relRows : S2048x500.Idx → EReal := V m c main_v4
abbrev relWts : S500x1024.Idx → EReal := V m c main_v11

/-- The relation projection of batch row `b` at column `q` of the stacked weights, from the arrays the region finds. -/
def relAt (b : Fin 2048) (q : Fin 1024) : EReal :=
  ∑ k : Fin 500, relRows m c (ix2 b k) * relWts m c (ix2 k q)

/-- The norm of batch row `b`: the square root of the sum over the coordinates of the four squared projections. -/
def normAt (b : Fin 2048) : EReal :=
  Ideal.sqrt (∑ d' : Fin 256, (relAt m c b (col 0 d') * relAt m c b (col 0 d') + relAt m c b (col 1 d') * relAt m c b (col 1 d')
    + relAt m c b (col 2 d') * relAt m c b (col 2 d') + relAt m c b (col 3 d') * relAt m c b (col 3 d')))

/-- The relation block of a point, projected, is the projection of the tile's rows. -/
theorem relProj_blocks (t : Fin cfg0.N) (p : Fin 512) (q : Fin 1024) :
    relProj (iblk m c 2 t) (iblk m c 4 t) p q = relAt m c (rowOf t p) q := by
  unfold relProj relAt
  refine Finset.sum_congr rfl fun k _ => ?_
  rw [iblk2_apply, iblk4_apply]

theorem acc2_closed : ∀ (n : ℕ) (hn : n < cfg0.N) (p : Fin 512) (s : Fin 4) (d : Fin 256),
    acc2 m c ⟨n, hn⟩ (ix2 p (col s d)) = normAt m c (rowOf ⟨n, hn⟩ p) * relAt m c (rowOf ⟨n, hn⟩ p) (col s d) := by
  intro n
  induction n using Nat.strong_induction_on with
  | _ n ih =>
    intro hn p s d
    by_cases h0 : n % 16 = 0
    · rw [acc2_first m c ⟨n, hn⟩ h0]
      refine (pay3_apply (iblk m c 2 ⟨n, hn⟩) (iblk m c 4 ⟨n, hn⟩) p s d).trans ?_
      simp only [relProj_blocks]
      rfl
    · have hn1 : n - 1 < cfg0.N := lt_of_le_of_lt (Nat.sub_le _ _) hn
      rw [acc2_step m c ⟨n, hn⟩ h0]
      have hprev : (prevAt m c ⟨n, hn⟩).2.2.2 (ix2 p (col s d)) = acc2 m c ⟨n - 1, hn1⟩ (ix2 p (col s d)) := rfl
      have hrow : rowOf ⟨n - 1, hn1⟩ p = rowOf ⟨n, hn⟩ p := Fin.ext (by
        show (n - 1) / 16 * 512 + p.val = n / 16 * 512 + p.val
        have : (n - 1) / 16 = n / 16 := by omega
        rw [this])
      rw [hprev, ih (n - 1) (by omega) hn1 p s d, hrow]

end Cert.KernelIdeal.Closed

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«116962_j49649821942232_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibPadConcat.lean ====
/-
  Two host layout operations read at an index written by coordinates, for matrices.
  A matrix of B columns padded on the high side of its columns only (no low padding, no interior padding) reads, at
  (a, j), the matrix at (a, j) when j < B and the padding value otherwise. Four matrices of one shape [a, N] stacked
  along the rows read, at row s * a + d, piece s at row d.
-/
import Idealize.ShloMosaic.Lib.ValueIdx
import Idealize.ShloMosaic.Lib.Pipeline.Value
import Idealize.ShloMosaic.Lib.KernelVsHost

noncomputable section

namespace Cert.LibPadConcat

open Idealize.ShloMosaic Idealize.ShloMosaic.ValueIdx

/-- An [A, B] matrix padded with p further columns of the value v, read at (a, j): the matrix there when j < B,
    the padding value otherwise. -/
theorem pad_high_cols_apply {α : Type} {A B B' : Nat} (p : Nat) (x : (⟨2, ![A, B]⟩ : Shape).Idx → α) {u : Shape}
    (v : u.Idx → α) (h : (⟨2, ![A, B]⟩ : Shape).Pads (![0, 0] : Fin 2 → Nat) ![0, p] ![0, 0] ⟨2, ![A, B']⟩)
    (hu : 0 < u.numel) (a : Fin A) (j : Fin B') :
    pad ⟨2, ![A, B']⟩ ![0, 0] ![0, p] ![0, 0] x v h hu (ix2 a j)
      = if hj : j.val < B then x (ix2 a ⟨j.val, hj⟩) else v (Shape.Idx.first hu) := by
  split
  · next hj =>
    exact pad_apply_of_inside _ _ _ x v h hu (ix2 a j) (ix2 a ⟨j.val, hj⟩) (fun c => match c with
      | ⟨0, _⟩ => by show a.val = 0 + a.val * (0 + 1); omega
      | ⟨1, _⟩ => by show j.val = 0 + j.val * (0 + 1); omega)
  · next hj =>
    exact pad_apply_of_not_inside _ _ _ x v h hu (ix2 a j) (1 : Fin 2) (by
      show ¬(0 ≤ j.val ∧ (j.val - 0) % (0 + 1) = 0 ∧ (j.val - 0) / (0 + 1) < B)
      rintro ⟨_, _, h3⟩
      rw [Nat.sub_zero, Nat.zero_add, Nat.div_one] at h3
      exact hj h3)

/-- Four [a, N] matrices stacked along the rows into an [R, N] matrix, read at (r, j) with r = s * a + d: piece s
    at (d, j). -/
theorem concatenate4_rows_apply {α : Type} {a N R : Nat} (x0 x1 x2 x3 : (⟨2, ![a, N]⟩ : Shape).Idx → α)
    (h : Shape.Concatenates [(⟨2, ![a, N]⟩ : Shape), ⟨2, ![a, N]⟩, ⟨2, ![a, N]⟩, ⟨2, ![a, N]⟩] ⟨2, ![R, N]⟩ 0)
    (s : Fin 4) (d : Fin a) (r : Fin R) (hr : r.val = s.val * a + d.val) (j : Fin N) :
    concatenate ⟨2, ![R, N]⟩ 0 [⟨⟨2, ![a, N]⟩, x0⟩, ⟨⟨2, ![a, N]⟩, x1⟩, ⟨⟨2, ![a, N]⟩, x2⟩, ⟨⟨2, ![a, N]⟩, x3⟩] h (ix2 r j)
      = (![x0, x1, x2, x3] : Fin 4 → ((⟨2, ![a, N]⟩ : Shape).Idx → α)) s (ix2 d j) := by
  have hoff : ∀ b : Fin 2, b.cast (rfl : (2 : Nat) = 2) ≠ (0 : Fin 2) → ((ix2 d j) b).val = ((ix2 r j) (b.cast rfl)).val :=
    fun b => match b with
      | ⟨0, _⟩ => fun hb => absurd rfl hb
      | ⟨1, _⟩ => fun _ => rfl
  match s, hr with
  | ⟨0, _⟩, hr =>
    have hr' : r.val = 0 * a + d.val := hr
    exact concatenate_apply_piece (t := ⟨2, ![R, N]⟩) (0 : Fin 2) [⟨⟨2, ![a, N]⟩, x0⟩, ⟨⟨2, ![a, N]⟩, x1⟩, ⟨⟨2, ![a, N]⟩, x2⟩, ⟨⟨2, ![a, N]⟩, x3⟩] h (ix2 r j) 0 (by simp) ⟨2, ![a, N]⟩ x0 rfl rfl 0 rfl (ix2 d j) hoff
      (by show 0 + d.val = r.val; omega)
  | ⟨1, _⟩, hr =>
    have hr' : r.val = 1 * a + d.val := hr
    exact concatenate_apply_piece (t := ⟨2, ![R, N]⟩) (0 : Fin 2) [⟨⟨2, ![a, N]⟩, x0⟩, ⟨⟨2, ![a, N]⟩, x1⟩, ⟨⟨2, ![a, N]⟩, x2⟩, ⟨⟨2, ![a, N]⟩, x3⟩] h (ix2 r j) 1 (by simp) ⟨2, ![a, N]⟩ x1 rfl rfl a (by simp) (ix2 d j) hoff
      (by show a + d.val = r.val; omega)
  | ⟨2, _⟩, hr =>
    have hr' : r.val = 2 * a + d.val := hr
    exact concatenate_apply_piece (t := ⟨2, ![R, N]⟩) (0 : Fin 2) [⟨⟨2, ![a, N]⟩, x0⟩, ⟨⟨2, ![a, N]⟩, x1⟩, ⟨⟨2, ![a, N]⟩, x2⟩, ⟨⟨2, ![a, N]⟩, x3⟩] h (ix2 r j) 2 (by simp) ⟨2, ![a, N]⟩ x2 rfl rfl (a + a) (by simp) (ix2 d j) hoff
      (by show a + a + d.val = r.val; omega)
  | ⟨3, _⟩, hr =>
    have hr' : r.val = 3 * a + d.val := hr
    exact concatenate_apply_piece (t := ⟨2, ![R, N]⟩) (0 : Fin 2) [⟨⟨2, ![a, N]⟩, x0⟩, ⟨⟨2, ![a, N]⟩, x1⟩, ⟨⟨2, ![a, N]⟩, x2⟩, ⟨⟨2, ![a, N]⟩, x3⟩] h (ix2 r j) 3 (by simp) ⟨2, ![a, N]⟩ x3 rfl rfl (a + (a + a)) (by simp) (ix2 d j) hoff
      (by show a + (a + a) + d.val = r.val; omega)

end Cert.LibPadConcat

end
-- ==== Proof.HostPrefixPad.lean ====
/-
  The kernel's host lines before the region, read at an index at the ideal values: the two padded activations and
  the unpadded one. Each of the two [2048, 20000] arguments is padded with 480 further columns of the value the
  integer 0 converts to, which is the extended real 0, and then changes format, which at the ideal values is the
  identity: at (b, j) the result is the argument at (b, j) when j < 20000 and 0 otherwise. The third argument only
  changes format: it is read unchanged.
-/
import proofs.«116962_j49649821942232_2_alg».proof.Proof.KI.Around
import proofs.«116962_j49649821942232_2_alg».proof.Proof.LibPlainDot
import proofs.«116962_j49649821942232_2_alg».proof.Proof.LibTileSum
import proofs.«116962_j49649821942232_2_alg».proof.Proof.LibPadConcat
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostPrefix

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-- The padding value: the integer 0 converted to a real is 0. -/
theorem pad_value : (sitofp (F := Ideal) .f32 (constantI S_ 32 0#32)) (Shape.Idx.first h_S_) = (0 : EReal) := by
  show (((0#32 : BitVec 32).toInt : ℝ) : EReal) = 0
  simp

/-- What the host lines leave in the first padded activation, as one term over the launch contents. -/
theorem v1_term : (V m c main_v1 : S2048x20480.Idx → EReal) =
    truncf .bf16 (pad S2048x20480 ![0, 0] ![0, 480] ![0, 0] (m ((c : Thread nD τ).loc main_arg0) : S2048x20000.Idx → EReal)
      (sitofp (F := Ideal) .f32 (constantI S_ 32 0#32)) pads_S2048x20000_S2048x20480_000_04800 h_S_) bitsLt_bf16_f32 := by
  dsimp only [V, prefixOps]
  simp only [hostOps0, hostOps0_1, hostOps0_2, hostOps0_3, hostOps0_4, hostOps0_5, hostOps0_6, List.flatten_cons, List.flatten_nil, List.append_nil, List.cons_append, List.nil_append]
  after_results
  rfl

/-- The first padded activation at (b, j): argument 0 there inside its 20000 columns, 0 in the padding. -/
theorem v1_apply (b : Fin 2048) (j : Fin 20480) :
    (V m c main_v1 : S2048x20480.Idx → EReal) (ix2 b j)
      = if hj : j.val < 20000 then (m ((c : Thread nD τ).loc main_arg0) : S2048x20000.Idx → EReal) (ix2 b ⟨j.val, hj⟩) else (0 : EReal) := by
  rw [v1_term, truncf_apply, Cert.LibPadConcat.pad_high_cols_apply, pad_value]

/-- What the host lines leave in the second padded activation. -/
theorem v3_term : (V m c main_v3 : S2048x20480.Idx → EReal) =
    truncf .bf16 (pad S2048x20480 ![0, 0] ![0, 480] ![0, 0] (m ((c : Thread nD τ).loc main_arg1) : S2048x20000.Idx → EReal)
      (sitofp (F := Ideal) .f32 (constantI S_ 32 0#32)) pads_S2048x20000_S2048x20480_000_04800 h_S_) bitsLt_bf16_f32 := by
  dsimp only [V, prefixOps]
  simp only [hostOps0, hostOps0_1, hostOps0_2, hostOps0_3, hostOps0_4, hostOps0_5, hostOps0_6, List.flatten_cons, List.flatten_nil, List.append_nil, List.cons_append, List.nil_append]
  after_results
  rfl

/-- The second padded activation at (b, j): argument 1 there inside its 20000 columns, 0 in the padding. -/
theorem v3_apply (b : Fin 2048) (j : Fin 20480) :
    (V m c main_v3 : S2048x20480.Idx → EReal) (ix2 b j)
      = if hj : j.val < 20000 then (m ((c : Thread nD τ).loc main_arg1) : S2048x20000.Idx → EReal) (ix2 b ⟨j.val, hj⟩) else (0 : EReal) := by
  rw [v3_term, truncf_apply, Cert.LibPadConcat.pad_high_cols_apply, pad_value]

/-- What the host lines leave in the third activation: argument 2 in the narrower format. -/
theorem v4_term : (V m c main_v4 : S2048x500.Idx → EReal) =
    (truncf .bf16 (m ((c : Thread nD τ).loc main_arg2) : FVec Ideal S2048x500 .f32) bitsLt_bf16_f32 : FVec Ideal S2048x500 .bf16) := by
  dsimp only [V, prefixOps]
  simp only [hostOps0, hostOps0_1, hostOps0_2, hostOps0_3, hostOps0_4, hostOps0_5, hostOps0_6, List.flatten_cons, List.flatten_nil, List.append_nil, List.cons_append, List.nil_append]
  after_results

/-- The third activation at (b, k): argument 2 there. -/
theorem v4_apply (b : Fin 2048) (k : Fin 500) :
    (V m c main_v4 : S2048x500.Idx → EReal) (ix2 b k) = (m ((c : Thread nD τ).loc main_arg2) : S2048x500.Idx → EReal) (ix2 b k) := by
  rw [v4_term, truncf_apply]

end Cert.KernelIdeal.HostPrefix

end
-- ==== Proof.HostPrefixV8.lean ====
/-
  The kernel's host lines before the region, read at an index at the ideal values: the stacked, padded and transposed
  operand. Four [256, 20000] arguments are stacked along the rows into [1024, 20000], padded with 480 further columns
  of the value the integer 0 converts to (the extended real 0), transposed to [20480, 1024], and change format (the
  identity at the ideal values). At (j, s * 256 + d) the result is piece s at (d, j) when j < 20000 and 0 otherwise.
-/
import proofs.«116962_j49649821942232_2_alg».proof.Proof.KI.Around
import proofs.«116962_j49649821942232_2_alg».proof.Proof.LibPlainDot
import proofs.«116962_j49649821942232_2_alg».proof.Proof.LibTileSum
import proofs.«116962_j49649821942232_2_alg».proof.Proof.LibPadConcat
import proofs.«116962_j49649821942232_2_alg».proof.Proof.HostPrefixPad
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostPrefix

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-- What the host lines leave in the stacked, padded, transposed operand, as one term over the launch contents. -/
theorem v8_term : (V m c main_v8 : S20480x1024.Idx → EReal) =
    truncf .bf16 (transpose S20480x1024 [1, 0]
      (pad S1024x20480 ![0, 0] ![0, 480] ![0, 0]
        (concatenate (α := EReal) S1024x20000 0
          ([⟨S256x20000, (m ((c : Thread nD τ).loc main_arg3) : S256x20000.Idx → EReal)⟩,
           ⟨S256x20000, (m ((c : Thread nD τ).loc main_arg4) : S256x20000.Idx → EReal)⟩,
           ⟨S256x20000, (m ((c : Thread nD τ).loc main_arg5) : S256x20000.Idx → EReal)⟩,
           ⟨S256x20000, (m ((c : Thread nD τ).loc main_arg6) : S256x20000.Idx → EReal)⟩] : List ((s : Shape) × (s.Idx → EReal)))
          (by exact concatenates_S256x20000_S256x20000_S256x20000_S256x20000_S1024x20000_d0))
        (sitofp (F := Ideal) .f32 (constantI S_ 32 0#32)) pads_S1024x20000_S1024x20480_000_04800 h_S_)
      transposes_S1024x20480_S20480x1024_1_0) bitsLt_bf16_f32 := by
  dsimp only [V, prefixOps]
  simp only [hostOps0, hostOps0_1, hostOps0_2, hostOps0_3, hostOps0_4, hostOps0_5, hostOps0_6, List.flatten_cons, List.flatten_nil, List.append_nil, List.cons_append, List.nil_append]
  after_results
  rfl

/-- The stacked, padded, transposed operand at (j, s * 256 + d): piece s (arguments 3 to 6 in order) at (d, j)
    inside the 20000 unpadded rows, 0 in the padding. -/
theorem v8_apply (j : Fin 20480) (s : Fin 4) (d : Fin 256) :
    (V m c main_v8 : S20480x1024.Idx → EReal) (ix2 j (TileSum.idx (by norm_num : 4 * 256 = 1024) s d))
      = if hj : j.val < 20000 then
          (![(m ((c : Thread nD τ).loc main_arg3) : S256x20000.Idx → EReal), m ((c : Thread nD τ).loc main_arg4), m ((c : Thread nD τ).loc main_arg5), m ((c : Thread nD τ).loc main_arg6)] : Fin 4 → (S256x20000.Idx → EReal)) s (ix2 d ⟨j.val, hj⟩)
        else (0 : EReal) := by
  rw [v8_term, truncf_apply, Cert.LibPlainDot.transpose_swap_apply, Cert.LibPadConcat.pad_high_cols_apply, pad_value]
  by_cases hj : j.val < 20000
  · rw [dif_pos hj, dif_pos hj]
    exact Cert.LibPadConcat.concatenate4_rows_apply _ _ _ _ _ s d _ rfl _
  · rw [dif_neg hj, dif_neg hj]

end Cert.KernelIdeal.HostPrefix

end
-- ==== Proof.HostPrefixV11.lean ====
/-
  The kernel's host lines before the region, read at an index at the ideal values: the stacked and transposed operand.
  Four [256, 500] arguments are stacked along the rows into [1024, 500], transposed to [500, 1024], and change format
  (the identity at the ideal values). At (k, s * 256 + d) the result is piece s at (d, k).
-/
import proofs.«116962_j49649821942232_2_alg».proof.Proof.KI.Around
import proofs.«116962_j49649821942232_2_alg».proof.Proof.LibPlainDot
import proofs.«116962_j49649821942232_2_alg».proof.Proof.LibTileSum
import proofs.«116962_j49649821942232_2_alg».proof.Proof.LibPadConcat
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostPrefix

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-- What the host lines leave in the stacked, transposed operand, as one term over the launch contents. -/
theorem v11_term : (V m c main_v11 : S500x1024.Idx → EReal) =
    (truncf .bf16 (transpose (s := S1024x500) (α := EReal) S500x1024 [1, 0]
      (concatenate (α := EReal) S1024x500 0
        ([⟨S256x500, (m ((c : Thread nD τ).loc main_arg7) : S256x500.Idx → EReal)⟩,
           ⟨S256x500, (m ((c : Thread nD τ).loc main_arg8) : S256x500.Idx → EReal)⟩,
           ⟨S256x500, (m ((c : Thread nD τ).loc main_arg9) : S256x500.Idx → EReal)⟩,
           ⟨S256x500, (m ((c : Thread nD τ).loc main_arg10) : S256x500.Idx → EReal)⟩] : List ((s : Shape) × (s.Idx → EReal)))
        (by exact concatenates_S256x500_S256x500_S256x500_S256x500_S1024x500_d0))
      transposes_S1024x500_S500x1024_1_0 : FVec Ideal S500x1024 .f32) bitsLt_bf16_f32 : FVec Ideal S500x1024 .bf16) := by
  dsimp only [V, prefixOps]
  simp only [hostOps0, hostOps0_1, hostOps0_2, hostOps0_3, hostOps0_4, hostOps0_5, hostOps0_6, List.flatten_cons, List.flatten_nil, List.append_nil, List.cons_append, List.nil_append]
  after_results
  rfl

/-- The stacked, transposed operand at (k, s * 256 + d): piece s (arguments 7 to 10 in order) at (d, k). -/
theorem v11_apply (k : Fin 500) (s : Fin 4) (d : Fin 256) :
    (V m c main_v11 : S500x1024.Idx → EReal) (ix2 k (TileSum.idx (by norm_num : 4 * 256 = 1024) s d))
      = (![(m ((c : Thread nD τ).loc main_arg7) : S256x500.Idx → EReal), m ((c : Thread nD τ).loc main_arg8), m ((c : Thread nD τ).loc main_arg9), m ((c : Thread nD τ).loc main_arg10)] : Fin 4 → (S256x500.Idx → EReal)) s (ix2 d k) := by
  rw [v11_term, truncf_apply, Cert.LibPlainDot.transpose_swap_apply]
  exact Cert.LibPadConcat.concatenate4_rows_apply _ _ _ _ _ s d _ rfl _

end Cert.KernelIdeal.HostPrefix

end
-- ==== Proof.LibPaddedSum.lean ====
/-
  Sums over a zero-padded axis. An axis of extent `m` padded with `n` trailing entries splits as the first `m`
  indices and the last `n`; where both factors of a product are padded with zero the padding contributes
  `0 · 0 = 0`, so the sum of products over the padded axis is the sum over the original one. Stated over any
  commutative additive monoid with a multiplication in which `0 · 0 = 0` (the extended reals are one: no distributivity is used).
-/
import Mathlib.Algebra.BigOperators.Fin

namespace PaddedSum

open Finset

variable {M : Type*} [AddCommMonoid M]

/-- A sum over `Fin R`, `R = m + n`, is the sum over the first `m` indices plus the sum over the last `n`. -/
theorem sum_split {R m n : ℕ} (h : m + n = R) (f : Fin R → M) :
    ∑ j, f j = ∑ i : Fin m, f ⟨i.val, by omega⟩ + ∑ i : Fin n, f ⟨m + i.val, by omega⟩ := by
  subst h
  rw [Fin.sum_univ_add]
  rfl

/-- `x` extended by a constant `z` past its extent. -/
def pad {m : ℕ} {α : Type*} (R : ℕ) (z : α) (x : Fin m → α) (j : Fin R) : α :=
  if hj : j.val < m then x ⟨j.val, hj⟩ else z

/-- The sum of products of two zero-padded rows over the padded axis is the sum over the original axis. -/
theorem sum_mul_pad [Mul M] (hz : (0 : M) * 0 = 0) {R m n : ℕ} (h : m + n = R) (a b : Fin m → M) (A B : Fin R → M)
    (hA : ∀ j, A j = pad R 0 a j) (hB : ∀ j, B j = pad R 0 b j) :
    ∑ j, A j * B j = ∑ i, a i * b i := by
  rw [sum_split h]
  have h2 : ∑ i : Fin n, A ⟨m + i.val, by omega⟩ * B ⟨m + i.val, by omega⟩ = 0 := by
    apply sum_eq_zero
    intro i _
    rw [hA, hB, pad, pad, dif_neg (by simp), dif_neg (by simp), hz]
  rw [h2, add_zero]
  apply sum_congr rfl
  intro i _
  rw [hA, hB, pad, pad, dif_pos (by simp), dif_pos (by simp)]

end PaddedSum
-- ==== Proof.Spec.lean ====
/-
  The function both programs compute, on the extended reals. For a batch row `b`:
  the head, tail and relation rows are projected onto 256 coordinates by four weight matrices each
  (`proj x W b d = Σ_k x[b, k] · W[d, k]`); the four relation projections are scaled by the row's
  hypercomplex norm (the square root of the sum over the coordinates of the four squares); at each
  coordinate the scaled relation quaternion multiplies the head quaternion (Hamilton product) and the
  result is dotted with the tail quaternion (`term`); the score is the sum of that over the 256
  coordinates, and the result is its logistic.
-/
import Idealize.ShloMosaic.PureOps.Ideal
import Idealize.ShloMosaic.Lib.ValueIdx

noncomputable section

namespace Cert.Spec

open Idealize.ShloMosaic Idealize.ShloMosaic.ValueIdx

/-- Row `b` of `x` against row `d` of `W`: one entry of `x · Wᵀ`. -/
def proj {K : ℕ} (x : FVec Ideal ⟨2, ![2048, K]⟩ .f32) (W : FVec Ideal ⟨2, ![256, K]⟩ .f32) (b : Fin 2048) (d : Fin 256) : EReal :=
  ∑ k : Fin K, x (ix2 b k) * W (ix2 d k)

/-- One coordinate of the score: the Hamilton product of the head quaternion `(Hr, Hi, Hj, Hk)` with the relation
    quaternion `(Rr, Ri, Rj, Rk)`, dotted with the tail quaternion `(Tr, Ti, Tj, Tk)`; sums and differences
    associated to the left, as both programs write them. -/
def term (Hr Hi Hj Hk Rr Ri Rj Rk Tr Ti Tj Tk : EReal) : EReal :=
  (Hr * Rr - Hi * Ri - Hj * Rj - Hk * Rk) * Tr + (Hr * Ri + Hi * Rr + Hj * Rk - Hk * Rj) * Ti
    + (Hr * Rj - Hi * Rk + Hj * Rr + Hk * Ri) * Tj + (Hr * Rk + Hi * Rj - Hj * Ri + Hk * Rr) * Tk

section
variable (h t : FVec Ideal ⟨2, ![2048, 20000]⟩ .f32) (r : FVec Ideal ⟨2, ![2048, 500]⟩ .f32)
  (Wer Wei Wej Wek : FVec Ideal ⟨2, ![256, 20000]⟩ .f32) (Wrr Wri Wrj Wrk : FVec Ideal ⟨2, ![256, 500]⟩ .f32)

/-- The sum over the coordinates of the four squared relation projections of row `b`. -/
def normSq (b : Fin 2048) : EReal :=
  ∑ d : Fin 256, (proj r Wrr b d * proj r Wrr b d + proj r Wri b d * proj r Wri b d
    + proj r Wrj b d * proj r Wrj b d + proj r Wrk b d * proj r Wrk b d)

/-- The row's hypercomplex norm. -/
def norm (b : Fin 2048) : EReal := Ideal.sqrt (normSq r Wrr Wri Wrj Wrk b)

/-- The score of row `b`. -/
def score (b : Fin 2048) : EReal :=
  ∑ d : Fin 256, term (proj h Wer b d) (proj h Wei b d) (proj h Wej b d) (proj h Wek b d)
    (norm r Wrr Wri Wrj Wrk b * proj r Wrr b d) (norm r Wrr Wri Wrj Wrk b * proj r Wri b d)
    (norm r Wrr Wri Wrj Wrk b * proj r Wrj b d) (norm r Wrr Wri Wrj Wrk b * proj r Wrk b d)
    (proj t Wer b d) (proj t Wei b d) (proj t Wej b d) (proj t Wek b d)

/-- The whole result, a column of 2048 scores through the logistic. -/
def G : FVec Ideal ⟨2, ![2048, 1]⟩ .f32 := fun i => Ideal.logistic (score h t r Wer Wei Wej Wek Wrr Wri Wrj Wrk (i 0))

end

end Cert.Spec

end
-- ==== Proof.KI.Proj.lean ====
/-
  The accumulators as projections of the arguments. After a tile's last step the head (tail) accumulator holds, at
  row `p` and column `256 s + d`, the total over the 16 steps of the step products, which is the sum over the whole
  padded contraction axis (the steps tile it), which is the sum over the 20000 real indices (head row and weight row
  are both padded with zero, and `0 · 0 = 0`), of the head entry times the `s`-th weight matrix's entry at row `d`:
  one entry of `h · Wₛᵀ`. The relation projections are the same with no padding and no tiling.
-/
import proofs.«116962_j49649821942232_2_alg».proof.Proof.KI.Closed
import proofs.«116962_j49649821942232_2_alg».proof.Proof.KI.ClosedRel
import proofs.«116962_j49649821942232_2_alg».proof.Proof.HostPrefixPad
import proofs.«116962_j49649821942232_2_alg».proof.Proof.HostPrefixV8
import proofs.«116962_j49649821942232_2_alg».proof.Proof.HostPrefixV11
import proofs.«116962_j49649821942232_2_alg».proof.Proof.LibPaddedSum
import proofs.«116962_j49649821942232_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Closed

open Cert.KernelIdeal Cert.KernelIdeal.Gen Cert.KernelIdeal.Hand Cert.KernelIdeal.Payload
open Idealize.ShloMosaic Idealize.ShloMosaic.TcCoe Idealize.ShloMosaic.ValueIdx
open Idealize.SL.Sem

variable (m : (ℓ : Loc nD τ sig) → Buf (Elt Ideal) ℓ) (c : Dev nD)

open Cert.KernelIdeal.HostPrefix

/-- The four entity weight matrices and the four relation weight matrices, by quarter of the stacked columns. -/
abbrev Wsel : Fin 4 → (S256x20000.Idx → EReal) :=
  ![(m ((c : Thread nD τ).loc main_arg3)), (m ((c : Thread nD τ).loc main_arg4)), (m ((c : Thread nD τ).loc main_arg5)), (m ((c : Thread nD τ).loc main_arg6))]
abbrev Wrsel : Fin 4 → (S256x500.Idx → EReal) :=
  ![(m ((c : Thread nD τ).loc main_arg7)), (m ((c : Thread nD τ).loc main_arg8)), (m ((c : Thread nD τ).loc main_arg9)), (m ((c : Thread nD τ).loc main_arg10))]

/-- The 16 step products of a zero-padded row against the padded stacked weights total the unpadded contraction. -/
theorem steps_total (harr : S2048x20000.Idx → EReal) (X : S2048x20480.Idx → EReal)
    (hX : ∀ (b : Fin 2048) (j : Fin 20480), X (ix2 b j) = if hj : j.val < 20000 then harr (ix2 b ⟨j.val, hj⟩) else (0 : EReal))
    (b : Fin 2048) (s : Fin 4) (d : Fin 256) :
    ∑ e : Fin 16, stepProd X (V m c main_v8) b e (col s d) = ∑ i : Fin 20000, harr (ix2 b i) * Wsel m c s (ix2 d i) := by
  unfold stepProd
  refine (TileSum.sum_axis (by norm_num : 16 * 1280 = 20480)
    (fun j : Fin 20480 => X (ix2 b j) * (V m c main_v8 : S20480x1024.Idx → EReal) (ix2 j (col s d)))).symm.trans ?_
  exact PaddedSum.sum_mul_pad (zero_mul (0 : EReal)) (by norm_num : 20000 + 480 = 20480)
    (fun i : Fin 20000 => harr (ix2 b i)) (fun i : Fin 20000 => Wsel m c s (ix2 d i)) _ _
    (fun j => hX b j) (fun j => v8_apply m c j s d)

theorem head_last (n : ℕ) (hn : n < cfg0.N) (h15 : n % 16 = 15) (p : Fin 512) (s : Fin 4) (d : Fin 256) :
    acc0 m c ⟨n, hn⟩ (ix2 p (col s d)) = Cert.Spec.proj (m ((c : Thread nD τ).loc main_arg0)) (Wsel m c s) (rowOf ⟨n, hn⟩ p) d := by
  rw [acc0_closed m c n hn p (col s d), h15, RunningTotal.upTo_last _ 15 (by norm_num)]
  exact steps_total m c _ _ (fun b j => v1_apply m c b j) _ s d

theorem tail_last (n : ℕ) (hn : n < cfg0.N) (h15 : n % 16 = 15) (p : Fin 512) (s : Fin 4) (d : Fin 256) :
    acc1 m c ⟨n, hn⟩ (ix2 p (col s d)) = Cert.Spec.proj (m ((c : Thread nD τ).loc main_arg1)) (Wsel m c s) (rowOf ⟨n, hn⟩ p) d := by
  rw [acc1_closed m c n hn p (col s d), h15, RunningTotal.upTo_last _ 15 (by norm_num)]
  exact steps_total m c _ _ (fun b j => v3_apply m c b j) _ s d

/-- The relation projection of a batch row is the row against the `s`-th relation weight matrix. -/
theorem rel_proj (b : Fin 2048) (s : Fin 4) (d : Fin 256) :
    relAt m c b (col s d) = Cert.Spec.proj (m ((c : Thread nD τ).loc main_arg2)) (Wrsel m c s) b d := by
  unfold relAt Cert.Spec.proj
  refine Finset.sum_congr rfl fun k _ => ?_
  exact congrArg₂ (fun (x y : EReal) => x * y) (v4_apply m c b k) (v11_apply m c k s d)

/-- The row norm is the specification's. -/
theorem norm_eq (b : Fin 2048) :
    normAt m c b = Cert.Spec.norm (m ((c : Thread nD τ).loc main_arg2)) (m ((c : Thread nD τ).loc main_arg7)) (m ((c : Thread nD τ).loc main_arg8)) (m ((c : Thread nD τ).loc main_arg9)) (m ((c : Thread nD τ).loc main_arg10)) b := by
  unfold normAt Cert.Spec.norm Cert.Spec.normSq
  simp only [rel_proj]
  rfl

end Cert.KernelIdeal.Closed

end
-- ==== Proof.PayScore.lean ====
/-
  The payload of the last step: the head, tail and scaled-relation accumulators are cut into their four quarters (the
  real, i, j, k parts), at each of the 256 coordinates the head quaternion is multiplied by the relation quaternion and
  the product dotted with the tail quaternion, the 256 numbers of a row are added, and the logistic function is applied.
-/
import proofs.«116962_j49649821942232_2_alg».proof.Proof.Gen.KernelIdeal.Skeleton
import proofs.«116962_j49649821942232_2_alg».proof.Proof.Spec
import proofs.«116962_j49649821942232_2_alg».proof.Proof.LibKeepdims
import proofs.«116962_j49649821942232_2_alg».proof.Proof.PayCol
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The result column at row p. -/
theorem pay7_apply (vh vt vr : Vec Ideal S512x1024 .f32) (p : Fin 512) (u : Fin 1) :
    k0_pay7 (F := Ideal) vh vt vr (ix2 p u)
      = Ideal.logistic (∑ d : Fin 256, Cert.Spec.term (vh (ix2 p (col 0 d))) (vh (ix2 p (col 1 d))) (vh (ix2 p (col 2 d))) (vh (ix2 p (col 3 d)))
          (vr (ix2 p (col 0 d))) (vr (ix2 p (col 1 d))) (vr (ix2 p (col 2 d))) (vr (ix2 p (col 3 d)))
          (vt (ix2 p (col 0 d))) (vt (ix2 p (col 1 d))) (vt (ix2 p (col 2 d))) (vt (ix2 p (col 3 d)))) := by
  unfold k0_pay7
  refine congrArg Ideal.logistic ?_
  refine (Cert.LibKeepdims.shapeCast_a_a1_apply _ _ p u).trans ?_
  refine (Cert.LibKeepdims.multiReduction_add_lastAxis_apply _ _ _ _ _ p).trans ?_
  refine Finset.sum_congr rfl fun d _ => ?_
  simp only [addf_apply, mulf_apply, subf_apply, slice0_apply, slice1_apply, slice2_apply, slice3_apply]
  rfl

end Cert.KernelIdeal.Payload

end
-- ==== Proof.KI.Value.lean ====
/-
  The kernel's result. At the last step of batch tile `t / 16` the output block holds, at row `p`, the logistic of
  the score of batch row `512 (t/16) + p`: the three accumulators are then the head and tail projections and the
  norm-scaled relation projections of that row, and the body's last payload is the specification's `term` summed over
  the coordinates. The four written-back blocks tile the result column, so the result array ends at `Spec.G` of the
  argument arrays.
-/
import proofs.«116962_j49649821942232_2_alg».proof.Proof.KI.Proj
import proofs.«116962_j49649821942232_2_alg».proof.Proof.PayScore
import Idealize.ShloMosaic.Lib.Pipeline.Value
import Idealize.ShloMosaic.Lib.ValueIdx
import Idealize.ShloMosaic.PureOps.Ideal.Laws

set_option maxRecDepth 16384

noncomputable section

namespace Cert.KernelIdeal.Closed

open Cert.KernelIdeal Cert.KernelIdeal.Gen Cert.KernelIdeal.Hand Cert.KernelIdeal.Payload
open Idealize.ShloMosaic Idealize.ShloMosaic.TcCoe Idealize.ShloMosaic.ValueIdx
open Idealize.SL.Sem

variable (m : (ℓ : Loc nD τ sig) → Buf (Elt Ideal) ℓ) (c : Dev nD)

/-- The specification at the argument arrays, as contents of the result array. -/
abbrev Gk : Buf (Elt Ideal) ((c : Thread nD τ).loc main_v12) :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The output block after a tile's last step, at row `p`: the specification at the tile's row. -/
theorem out_value (n : ℕ) (hn : n < cfg0.N) (h15 : n % 16 = 15) (p : Fin 512) (u : Fin 1) :
    outB m c ⟨n, hn⟩ (ix2 p u) = Ideal.logistic (Cert.Spec.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf ⟨n, hn⟩ p)) := by
  rw [out_last m c ⟨n, hn⟩ h15]
  refine (pay7_apply (acc0 m c ⟨n, hn⟩) (acc1 m c ⟨n, hn⟩) (acc2 m c ⟨n, hn⟩) p u).trans ?_
  refine congrArg Ideal.logistic ?_
  unfold Cert.Spec.score
  refine Finset.sum_congr rfl fun d _ => ?_
  rw [head_last m c n hn h15 p 0 d, head_last m c n hn h15 p 1 d, head_last m c n hn h15 p 2 d, head_last m c n hn h15 p 3 d,
    tail_last m c n hn h15 p 0 d, tail_last m c n hn h15 p 1 d, tail_last m c n hn h15 p 2 d, tail_last m c n hn h15 p 3 d,
    acc2_closed m c n hn p 0 d, acc2_closed m c n hn p 1 d, acc2_closed m c n hn p 2 d, acc2_closed m c n hn p 3 d,
    rel_proj, rel_proj, rel_proj, rel_proj, norm_eq]
  rfl

set_option maxRecDepth 1000000 in
/-- What a writing-back point writes back is its block of the specification. -/
theorem flushed_eq (t : Fin cfg0.N) (hf : (cfg0.win 5).flush t = true) :
    (dats m 0 c).flushed 5 t = ((cfg0.win 5).blk t).view.read (Elt Ideal) (Gk m c) := by
  have h15 : t.val % 16 = 15 := (flush0_5 t).mp hf
  obtain ⟨-, -, -, -, -, -, -, -, -, -, e0, e1⟩ := idx_facts t
  show (cfg0.win 5).cut (grid0.coords t) ((dats m 0 c).after 5 t) = _
  rw [after0_5]
  funext y
  obtain ⟨p, u, rfl⟩ : ∃ (p : Fin 512) (u : Fin 1), y = ix2 p u := ⟨y 0, y 1, eq_ix2 y⟩
  rw [View.read_apply]
  have hrow : (((cfg0.win 5).blk t).view.emb (ix2 p u)) 0 = rowOf t p := Fin.ext (by
    show win0_5.index t (0 : Fin 2) * 512 + 1 * p.val = t.val / 16 * 512 + p.val
    rw [e0]; omega)
  show outB m c ⟨t.val, t.isLt⟩ (ix2 p u) = Ideal.logistic (Cert.Spec.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((((cfg0.win 5).blk t).view.emb (ix2 p u)) 0))
  rw [hrow]
  exact out_value m c t.val t.isLt h15 p u

/-- An index of the result column is in point `t`'s block iff each coordinate is in the block's range. -/
theorem mem_blk (t : Fin cfg0.N) (i : S2048x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v12).slice (win0_5.rect t)).set ↔ _
  rw [View.set_slice_whole, Rect.mem_set_unit]
  exact Iff.rfl

/-- Every row of the result column is in the block some tile's last step writes back. -/
theorem cover (i : S2048x1.Idx) : ∃ t : Fin cfg0.N, (cfg0.win 5).flush t = true ∧ i ∈ ((cfg0.win 5).blk t).view.set := by
  have hi0 : (i 0).val < 2048 := (i 0).isLt
  have hi1 : (i 1).val < 1 := (i 1).isLt
  have hN : cfg0.N = 64 := N_0
  let t : Fin cfg0.N := ⟨(i 0).val / 512 * 16 + 15, by rw [hN]; omega⟩
  have ht : t.val = (i 0).val / 512 * 16 + 15 := rfl
  obtain ⟨-, -, -, -, -, -, -, -, -, -, e0, e1⟩ := idx_facts t
  refine ⟨t, (flush0_5 t).mpr (by rw [ht]; omega), ?_⟩
  rw [mem_blk]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1 ≤ (i 1).val ∧ (i 1).val < win0_5.index t (1 : Fin 2) * 1 + 1
    rw [e1]; omega

/-- So the result array ends holding the specification at the argument arrays. -/
theorem final : (dats m 0 c).arrAt 5 cfg0.N = Gk m c :=
  (dats m 0 c).arrAt_eq_of_cover 5 (Gk m c) (flushed_eq m c) (cover)

/-- The run, read: the result array at the specification, every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

end Cert.KernelIdeal.Closed

end
-- ==== Proof.RefProj.lean ====
/-
  The reference's twelve matrix products, read at an entry. Each is a contraction of a [2048, K] array with the
  transpose of a [256, K] array over the shared axis of length K, so its entry (b, d) is Σ_k x[b, k] · W[d, k]:
  the transposed operand at (k, d) is W at (d, k). That sum is the specification's `proj x W b d`.
-/
import proofs.«116962_j49649821942232_2_alg».proof.Proof.Spec
import proofs.«116962_j49649821942232_2_alg».proof.Proof.Gen.ReferenceIdeal.Read

noncomputable section

namespace Cert.RefValue

open Cert.ReferenceIdeal Cert.ReferenceIdeal.Read Idealize.ShloMosaic Idealize.ShloMosaic.ValueIdx

/-- Entry (b, d) of product 1: the row b of x against the row d of W. -/
theorem proj_v1 (x : FVec Ideal S2048x20000 .f32) (W : FVec Ideal S256x20000 .f32) (b : Fin 2048) (d : Fin 256) :
    val_main_v1 (F := Ideal) x W (ix2 b d) = Cert.Spec.proj x W b d := by
  rw [val_main_v1_apply]
  refine Finset.sum_congr rfl fun k _ => ?_
  rw [val_main_v0_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 3: the row b of x against the row d of W. -/
theorem proj_v3 (x : FVec Ideal S2048x20000 .f32) (W : FVec Ideal S256x20000 .f32) (b : Fin 2048) (d : Fin 256) :
    val_main_v3 (F := Ideal) x W (ix2 b d) = Cert.Spec.proj x W b d := by
  rw [val_main_v3_apply]
  refine Finset.sum_congr rfl fun k _ => ?_
  rw [val_main_v2_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 5: the row b of x against the row d of W. -/
theorem proj_v5 (x : FVec Ideal S2048x20000 .f32) (W : FVec Ideal S256x20000 .f32) (b : Fin 2048) (d : Fin 256) :
    val_main_v5 (F := Ideal) x W (ix2 b d) = Cert.Spec.proj x W b d := by
  rw [val_main_v5_apply]
  refine Finset.sum_congr rfl fun k _ => ?_
  rw [val_main_v4_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 7: the row b of x against the row d of W. -/
theorem proj_v7 (x : FVec Ideal S2048x20000 .f32) (W : FVec Ideal S256x20000 .f32) (b : Fin 2048) (d : Fin 256) :
    val_main_v7 (F := Ideal) x W (ix2 b d) = Cert.Spec.proj x W b d := by
  rw [val_main_v7_apply]
  refine Finset.sum_congr rfl fun k _ => ?_
  rw [val_main_v6_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 9: the row b of x against the row d of W. -/
theorem proj_v9 (x : FVec Ideal S2048x20000 .f32) (W : FVec Ideal S256x20000 .f32) (b : Fin 2048) (d : Fin 256) :
    val_main_v9 (F := Ideal) x W (ix2 b d) = Cert.Spec.proj x W b d := by
  rw [val_main_v9_apply]
  refine Finset.sum_congr rfl fun k _ => ?_
  rw [val_main_v8_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 11: the row b of x against the row d of W. -/
theorem proj_v11 (x : FVec Ideal S2048x20000 .f32) (W : FVec Ideal S256x20000 .f32) (b : Fin 2048) (d : Fin 256) :
    val_main_v11 (F := Ideal) x W (ix2 b d) = Cert.Spec.proj x W b d := by
  rw [val_main_v11_apply]
  refine Finset.sum_congr rfl fun k _ => ?_
  rw [val_main_v10_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 13: the row b of x against the row d of W. -/
theorem proj_v13 (x : FVec Ideal S2048x20000 .f32) (W : FVec Ideal S256x20000 .f32) (b : Fin 2048) (d : Fin 256) :
    val_main_v13 (F := Ideal) x W (ix2 b d) = Cert.Spec.proj x W b d := by
  rw [val_main_v13_apply]
  refine Finset.sum_congr rfl fun k _ => ?_
  rw [val_main_v12_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 15: the row b of x against the row d of W. -/
theorem proj_v15 (x : FVec Ideal S2048x20000 .f32) (W : FVec Ideal S256x20000 .f32) (b : Fin 2048) (d : Fin 256) :
    val_main_v15 (F := Ideal) x W (ix2 b d) = Cert.Spec.proj x W b d := by
  rw [val_main_v15_apply]
  refine Finset.sum_congr rfl fun k _ => ?_
  rw [val_main_v14_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 17: the row b of x against the row d of W. -/
theorem proj_v17 (x : FVec Ideal S2048x500 .f32) (W : FVec Ideal S256x500 .f32) (b : Fin 2048) (d : Fin 256) :
    val_main_v17 (F := Ideal) x W (ix2 b d) = Cert.Spec.proj x W b d := by
  rw [val_main_v17_apply]
  refine Finset.sum_congr rfl fun k _ => ?_
  rw [val_main_v16_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 19: the row b of x against the row d of W. -/
theorem proj_v19 (x : FVec Ideal S2048x500 .f32) (W : FVec Ideal S256x500 .f32) (b : Fin 2048) (d : Fin 256) :
    val_main_v19 (F := Ideal) x W (ix2 b d) = Cert.Spec.proj x W b d := by
  rw [val_main_v19_apply]
  refine Finset.sum_congr rfl fun k _ => ?_
  rw [val_main_v18_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 21: the row b of x against the row d of W. -/
theorem proj_v21 (x : FVec Ideal S2048x500 .f32) (W : FVec Ideal S256x500 .f32) (b : Fin 2048) (d : Fin 256) :
    val_main_v21 (F := Ideal) x W (ix2 b d) = Cert.Spec.proj x W b d := by
  rw [val_main_v21_apply]
  refine Finset.sum_congr rfl fun k _ => ?_
  rw [val_main_v20_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

/-- Entry (b, d) of product 23: the row b of x against the row d of W. -/
theorem proj_v23 (x : FVec Ideal S2048x500 .f32) (W : FVec Ideal S256x500 .f32) (b : Fin 2048) (d : Fin 256) :
    val_main_v23 (F := Ideal) x W (ix2 b d) = Cert.Spec.proj x W b d := by
  rw [val_main_v23_apply]
  refine Finset.sum_congr rfl fun k _ => ?_
  rw [val_main_v22_apply]
  exact congrArg₂ (· * ·)
    (congrArg x (funext fun a => by match a with | ⟨0, _⟩ => rfl | ⟨1, _⟩ => rfl))
    (congrArg W (funext fun a => by match a with | ⟨0, _⟩ => rfl | ⟨1, _⟩ => rfl))

end Cert.RefValue

end
-- ==== Proof.RefNorm.lean ====
/-
  The reference's hypercomplex norm of a row and the four scaled relation projections.
  At (b, d) the four squared relation projections are added left to right; the host's row sum is its initial value, the
  float zero, plus the sum over the 256 coordinates, so it is the specification's `normSq`; the square root is taken on the
  [2048, 1] column and the column is then repeated along the 256 coordinates, so every entry (b, d) of the repeated array
  is the norm of row b.
-/
import proofs.«116962_j49649821942232_2_alg».proof.Proof.Spec
import proofs.«116962_j49649821942232_2_alg».proof.Proof.Gen.ReferenceIdeal.Read
import proofs.«116962_j49649821942232_2_alg».proof.Proof.RefProj

noncomputable section

namespace Cert.RefValue

open Cert.ReferenceIdeal Cert.ReferenceIdeal.Read Idealize.ShloMosaic Idealize.ShloMosaic.ValueIdx

section
variable (r : FVec Ideal S2048x500 .f32) (Wrr Wri Wrj Wrk : FVec Ideal S256x500 .f32)

/-- The four squares at (b, d), added left to right. -/
theorem squares_v30 (b : Fin 2048) (d : Fin 256) :
    val_main_v30 (F := Ideal) r Wrr Wri Wrj Wrk (ix2 b d)
      = Cert.Spec.proj r Wrr b d * Cert.Spec.proj r Wrr b d + Cert.Spec.proj r Wri b d * Cert.Spec.proj r Wri b d
        + Cert.Spec.proj r Wrj b d * Cert.Spec.proj r Wrj b d + Cert.Spec.proj r Wrk b d * Cert.Spec.proj r Wrk b d := by
  rw [val_main_v30_apply, val_main_v28_apply, val_main_v26_apply, val_main_v24_apply, val_main_v25_apply,
    val_main_v27_apply, val_main_v29_apply, proj_v17, proj_v19, proj_v21, proj_v23]
  simp only [Ideal.addf_def, Ideal.mulf_def]

/-- The row sum of the squares: zero plus the sum over the coordinates. -/
theorem normSq_v31 (b : Fin 2048) :
    val_main_v31 (F := Ideal) r Wrr Wri Wrj Wrk (ix1 b) = Cert.Spec.normSq r Wrr Wri Wrj Wrk b := by
  rw [val_main_v31_apply, val_main_cst_apply, Ideal.ofBits_def, Ideal.ofBits_zero_f32, zero_add]
  unfold Cert.Spec.normSq
  refine Finset.sum_congr rfl fun d _ => ?_
  have e : idx_main_v31 (ix1 b) d = ix2 b d := funext fun a => by match a with | ⟨0, _⟩ => rfl | ⟨1, _⟩ => rfl
  rw [e, squares_v30]

/-- The norm column at row b. -/
theorem norm_v33 (b : Fin 2048) (z : Fin 1) :
    val_main_v33 (F := Ideal) r Wrr Wri Wrj Wrk (ix2 b z) = Cert.Spec.norm r Wrr Wri Wrj Wrk b := by
  rw [val_main_v33_apply, val_main_v32_apply]
  have e : idx_main_v32 (ix2 b z) = ix1 b := funext fun a => by match a with | ⟨0, _⟩ => rfl
  rw [e, normSq_v31, Ideal.hostUnary_sqrt_def]
  rfl

/-- The repeated norm column at (b, d) is the norm of row b. -/
theorem norm_v34 (b : Fin 2048) (d : Fin 256) :
    val_main_v34 (F := Ideal) r Wrr Wri Wrj Wrk (ix2 b d) = Cert.Spec.norm r Wrr Wri Wrj Wrk b := by
  rw [val_main_v34_apply]
  have e : idx_main_v34 (ix2 b d) = ix2 b (0 : Fin 1) := funext fun a => by match a with | ⟨0, _⟩ => rfl | ⟨1, _⟩ => rfl
  rw [e, norm_v33]

/-- The scaled relation projection at (b, d): the norm of row b times the projection. -/
theorem scaled_v35 (b : Fin 2048) (d : Fin 256) :
    val_main_v35 (F := Ideal) r Wrr Wri Wrj Wrk (ix2 b d) = Cert.Spec.norm r Wrr Wri Wrj Wrk b * Cert.Spec.proj r Wrr b d := by
  rw [val_main_v35_apply, norm_v34, proj_v17, Ideal.mulf_def]

/-- The repeated norm column at (b, d) is the norm of row b. -/
theorem norm_v36 (b : Fin 2048) (d : Fin 256) :
    val_main_v36 (F := Ideal) r Wrr Wri Wrj Wrk (ix2 b d) = Cert.Spec.norm r Wrr Wri Wrj Wrk b := by
  rw [val_main_v36_apply]
  have e : idx_main_v36 (ix2 b d) = ix2 b (0 : Fin 1) := funext fun a => by match a with | ⟨0, _⟩ => rfl | ⟨1, _⟩ => rfl
  rw [e, norm_v33]

/-- The scaled relation projection at (b, d): the norm of row b times the projection. -/
theorem scaled_v37 (b : Fin 2048) (d : Fin 256) :
    val_main_v37 (F := Ideal) r Wrr Wri Wrj Wrk (ix2 b d) = Cert.Spec.norm r Wrr Wri Wrj Wrk b * Cert.Spec.proj r Wri b d := by
  rw [val_main_v37_apply, norm_v36, proj_v19, Ideal.mulf_def]

/-- The repeated norm column at (b, d) is the norm of row b. -/
theorem norm_v38 (b : Fin 2048) (d : Fin 256) :
    val_main_v38 (F := Ideal) r Wrr Wri Wrj Wrk (ix2 b d) = Cert.Spec.norm r Wrr Wri Wrj Wrk b := by
  rw [val_main_v38_apply]
  have e : idx_main_v38 (ix2 b d) = ix2 b (0 : Fin 1) := funext fun a => by match a with | ⟨0, _⟩ => rfl | ⟨1, _⟩ => rfl
  rw [e, norm_v33]

/-- The scaled relation projection at (b, d): the norm of row b times the projection. -/
theorem scaled_v39 (b : Fin 2048) (d : Fin 256) :
    val_main_v39 (F := Ideal) r Wrr Wri Wrj Wrk (ix2 b d) = Cert.Spec.norm r Wrr Wri Wrj Wrk b * Cert.Spec.proj r Wrj b d := by
  rw [val_main_v39_apply, norm_v38, proj_v21, Ideal.mulf_def]

/-- The repeated norm column at (b, d) is the norm of row b. -/
theorem norm_v40 (b : Fin 2048) (d : Fin 256) :
    val_main_v40 (F := Ideal) r Wrr Wri Wrj Wrk (ix2 b d) = Cert.Spec.norm r Wrr Wri Wrj Wrk b := by
  rw [val_main_v40_apply]
  have e : idx_main_v40 (ix2 b d) = ix2 b (0 : Fin 1) := funext fun a => by match a with | ⟨0, _⟩ => rfl | ⟨1, _⟩ => rfl
  rw [e, norm_v33]

/-- The scaled relation projection at (b, d): the norm of row b times the projection. -/
theorem scaled_v41 (b : Fin 2048) (d : Fin 256) :
    val_main_v41 (F := Ideal) r Wrr Wri Wrj Wrk (ix2 b d) = Cert.Spec.norm r Wrr Wri Wrj Wrk b * Cert.Spec.proj r Wrk b d := by
  rw [val_main_v41_apply, norm_v40, proj_v23, Ideal.mulf_def]

end

end Cert.RefValue

end
-- ==== Proof.RefHamilton.lean ====
/-
  The reference's Hamilton product at a coordinate. At (b, d) the head quaternion (the four head projections) is
  multiplied by the scaled relation quaternion (the norm of row b times the four relation projections), the sums and
  differences taken left to right as the program writes them, and the product is dotted with the tail quaternion: the
  specification's `term` of the twelve numbers.
-/
import proofs.«116962_j49649821942232_2_alg».proof.Proof.Spec
import proofs.«116962_j49649821942232_2_alg».proof.Proof.Gen.ReferenceIdeal.Read
import proofs.«116962_j49649821942232_2_alg».proof.Proof.RefProj
import proofs.«116962_j49649821942232_2_alg».proof.Proof.RefNorm

noncomputable section

namespace Cert.RefValue

open Cert.ReferenceIdeal Cert.ReferenceIdeal.Read Idealize.ShloMosaic Idealize.ShloMosaic.ValueIdx

section
variable (h t : FVec Ideal S2048x20000 .f32) (r : FVec Ideal S2048x500 .f32)
  (Wer Wei Wej Wek : FVec Ideal S256x20000 .f32) (Wrr Wri Wrj Wrk : FVec Ideal S256x500 .f32)

/-- The real component of the product at (b, d). -/
theorem hamilton_r (b : Fin 2048) (d : Fin 256) :
    val_main_v48 (F := Ideal) h r Wer Wei Wej Wek Wrr Wri Wrj Wrk (ix2 b d)
      = Cert.Spec.proj h Wer b d * (Cert.Spec.norm r Wrr Wri Wrj Wrk b * Cert.Spec.proj r Wrr b d) - Cert.Spec.proj h Wei b d * (Cert.Spec.norm r Wrr Wri Wrj Wrk b * Cert.Spec.proj r Wri b d) - Cert.Spec.proj h Wej b d * (Cert.Spec.norm r Wrr Wri Wrj Wrk b * Cert.Spec.proj r Wrj b d) - Cert.Spec.proj h Wek b d * (Cert.Spec.norm r Wrr Wri Wrj Wrk b * Cert.Spec.proj r Wrk b d) := by
  rw [val_main_v48_apply, val_main_v46_apply, val_main_v44_apply, val_main_v42_apply, val_main_v43_apply, val_main_v45_apply, val_main_v47_apply,
    proj_v1, proj_v3, proj_v5, proj_v7, scaled_v35, scaled_v37, scaled_v39, scaled_v41]
  simp only [Ideal.subf_def, Ideal.mulf_def]

/-- The i component of the product at (b, d). -/
theorem hamilton_i (b : Fin 2048) (d : Fin 256) :
    val_main_v55 (F := Ideal) h r Wer Wei Wej Wek Wrr Wri Wrj Wrk (ix2 b d)
      = Cert.Spec.proj h Wer b d * (Cert.Spec.norm r Wrr Wri Wrj Wrk b * Cert.Spec.proj r Wri b d) + Cert.Spec.proj h Wei b d * (Cert.Spec.norm r Wrr Wri Wrj Wrk b * Cert.Spec.proj r Wrr b d) + Cert.Spec.proj h Wej b d * (Cert.Spec.norm r Wrr Wri Wrj Wrk b * Cert.Spec.proj r Wrk b d) - Cert.Spec.proj h Wek b d * (Cert.Spec.norm r Wrr Wri Wrj Wrk b * Cert.Spec.proj r Wrj b d) := by
  rw [val_main_v55_apply, val_main_v53_apply, val_main_v51_apply, val_main_v49_apply, val_main_v50_apply, val_main_v52_apply, val_main_v54_apply,
    proj_v1, proj_v3, proj_v5, proj_v7, scaled_v35, scaled_v37, scaled_v39, scaled_v41]
  simp only [Ideal.addf_def, Ideal.subf_def, Ideal.mulf_def]

/-- The j component of the product at (b, d). -/
theorem hamilton_j (b : Fin 2048) (d : Fin 256) :
    val_main_v62 (F := Ideal) h r Wer Wei Wej Wek Wrr Wri Wrj Wrk (ix2 b d)
      = Cert.Spec.proj h Wer b d * (Cert.Spec.norm r Wrr Wri Wrj Wrk b * Cert.Spec.proj r Wrj b d) - Cert.Spec.proj h Wei b d * (Cert.Spec.norm r Wrr Wri Wrj Wrk b * Cert.Spec.proj r Wrk b d) + Cert.Spec.proj h Wej b d * (Cert.Spec.norm r Wrr Wri Wrj Wrk b * Cert.Spec.proj r Wrr b d) + Cert.Spec.proj h Wek b d * (Cert.Spec.norm r Wrr Wri Wrj Wrk b * Cert.Spec.proj r Wri b d) := by
  rw [val_main_v62_apply, val_main_v60_apply, val_main_v58_apply, val_main_v56_apply, val_main_v57_apply, val_main_v59_apply, val_main_v61_apply,
    proj_v1, proj_v3, proj_v5, proj_v7, scaled_v35, scaled_v37, scaled_v39, scaled_v41]
  simp only [Ideal.addf_def, Ideal.subf_def, Ideal.mulf_def]

/-- The k component of the product at (b, d). -/
theorem hamilton_k (b : Fin 2048) (d : Fin 256) :
    val_main_v69 (F := Ideal) h r Wer Wei Wej Wek Wrr Wri Wrj Wrk (ix2 b d)
      = Cert.Spec.proj h Wer b d * (Cert.Spec.norm r Wrr Wri Wrj Wrk b * Cert.Spec.proj r Wrk b d) + Cert.Spec.proj h Wei b d * (Cert.Spec.norm r Wrr Wri Wrj Wrk b * Cert.Spec.proj r Wrj b d) - Cert.Spec.proj h Wej b d * (Cert.Spec.norm r Wrr Wri Wrj Wrk b * Cert.Spec.proj r Wri b d) + Cert.Spec.proj h Wek b d * (Cert.Spec.norm r Wrr Wri Wrj Wrk b * Cert.Spec.proj r Wrr b d) := by
  rw [val_main_v69_apply, val_main_v67_apply, val_main_v65_apply, val_main_v63_apply, val_main_v64_apply, val_main_v66_apply, val_main_v68_apply,
    proj_v1, proj_v3, proj_v5, proj_v7, scaled_v35, scaled_v37, scaled_v39, scaled_v41]
  simp only [Ideal.addf_def, Ideal.subf_def, Ideal.mulf_def]

/-- The product dotted with the tail quaternion at (b, d): one coordinate of the score. -/
theorem term_v76 (b : Fin 2048) (d : Fin 256) :
    val_main_v76 (F := Ideal) h t r Wer Wei Wej Wek Wrr Wri Wrj Wrk (ix2 b d)
      = Cert.Spec.term (Cert.Spec.proj h Wer b d) (Cert.Spec.proj h Wei b d) (Cert.Spec.proj h Wej b d) (Cert.Spec.proj h Wek b d)
          (Cert.Spec.norm r Wrr Wri Wrj Wrk b * Cert.Spec.proj r Wrr b d) (Cert.Spec.norm r Wrr Wri Wrj Wrk b * Cert.Spec.proj r Wri b d)
          (Cert.Spec.norm r Wrr Wri Wrj Wrk b * Cert.Spec.proj r Wrj b d) (Cert.Spec.norm r Wrr Wri Wrj Wrk b * Cert.Spec.proj r Wrk b d)
          (Cert.Spec.proj t Wer b d) (Cert.Spec.proj t Wei b d) (Cert.Spec.proj t Wej b d) (Cert.Spec.proj t Wek b d) := by
  rw [val_main_v76_apply, val_main_v74_apply, val_main_v72_apply, val_main_v70_apply, val_main_v71_apply, val_main_v73_apply, val_main_v75_apply,
    hamilton_r, hamilton_i, hamilton_j, hamilton_k, proj_v9, proj_v11, proj_v13, proj_v15]
  simp only [Ideal.addf_def, Ideal.mulf_def]
  rfl

end

end Cert.RefValue

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.RefValue.lean ====
/-
  The reference's result is the specification. The second row sum is the float zero plus the sum over the 256
  coordinates of the Hamilton product dotted with the tail, i.e. the score of the row; the program then spells the
  logistic function as 1 / (1 + e^(−score)) with both ones the float 1.0, which denotes 1.
-/
import proofs.«116962_j49649821942232_2_alg».proof.Proof.Spec
import proofs.«116962_j49649821942232_2_alg».proof.Proof.Gen.ReferenceIdeal.Read
import proofs.«116962_j49649821942232_2_alg».proof.Proof.RefHamilton
import proofs.«116962_j49649821942232_2_alg».proof.Proof.LibLogistic

noncomputable section

namespace Cert.RefValue

open Cert.ReferenceIdeal Cert.ReferenceIdeal.Read Idealize.ShloMosaic Idealize.ShloMosaic.ValueIdx

section
variable (h t : FVec Ideal S2048x20000 .f32) (r : FVec Ideal S2048x500 .f32)
  (Wer Wei Wej Wek : FVec Ideal S256x20000 .f32) (Wrr Wri Wrj Wrk : FVec Ideal S256x500 .f32)

/-- The row sum of the dotted products is the score of the row. -/
theorem score_v77 (b : Fin 2048) :
    val_main_v77 (F := Ideal) h t r Wer Wei Wej Wek Wrr Wri Wrj Wrk (ix1 b)
      = Cert.Spec.score h t r Wer Wei Wej Wek Wrr Wri Wrj Wrk b := by
  rw [val_main_v77_apply, val_main_cst_0_apply, Ideal.ofBits_def, Ideal.ofBits_zero_f32, zero_add]
  unfold Cert.Spec.score
  refine Finset.sum_congr rfl fun d _ => ?_
  have e : idx_main_v77 (ix1 b) d = ix2 b d := funext fun a => by match a with | ⟨0, _⟩ => rfl | ⟨1, _⟩ => rfl
  rw [e, term_v76]

end

/-- The reference's result array, as a function of the eleven arguments, is the specification's. -/
theorem ref_is_G (a0 a1 : FVec Ideal S2048x20000 .f32) (a2 : FVec Ideal S2048x500 .f32)
    (a3 a4 a5 a6 : FVec Ideal S256x20000 .f32) (a7 a8 a9 a10 : FVec Ideal S256x500 .f32) :
    val_main_v84 (F := Ideal) a0 a1 a2 a3 a4 a5 a6 a7 a8 a9 a10 = Cert.Spec.G a0 a1 a2 a3 a4 a5 a6 a7 a8 a9 a10 := by
  funext i
  obtain ⟨b, z, rfl⟩ : ∃ (b : Fin 2048) (z : Fin 1), i = ix2 b z := ⟨i 0, i 1, eq_ix2 i⟩
  rw [val_main_v84_apply, val_main_v83_apply, val_main_cst_2_apply, val_main_v82_apply, val_main_v81_apply,
    val_main_cst_1_apply, val_main_v80_apply, val_main_v79_apply, val_main_v78_apply]
  have e : idx_main_v78 (ix2 b z) = ix1 b := funext fun a => by match a with | ⟨0, _⟩ => rfl
  rw [e, score_v77]
  simp only [Ideal.hostDivf_def, Ideal.addf_def, Ideal.hostUnary_exp_def, Ideal.hostNegf_def, Ideal.negf_def, Ideal.ofBits_def]
  exact Cert.LibLogistic.sigmoid_spelt _

end Cert.RefValue

end
-- ==== Proof.RefRun.lean ====
/-
  The reference's run, with its result named by the specification: every weakly fair execution of the reference
  program terminates with the result array holding the specification's function of the eleven argument arrays, and
  the arguments unchanged. The generated run gives the result as the operations' composed term of the arguments; that
  term is the last stage of the program read one operation at a time, which is the specification.
-/
import proofs.«116962_j49649821942232_2_alg».proof.Proof.Spec
import proofs.«116962_j49649821942232_2_alg».proof.Proof.Gen.ReferenceIdeal.Run
import proofs.«116962_j49649821942232_2_alg».proof.Proof.Gen.ReferenceIdeal.Read
import proofs.«116962_j49649821942232_2_alg».proof.Proof.RefValue

noncomputable section

namespace Cert.RefValue

open Idealize.ShloMosaic Idealize.ShloMosaic.TcCoe Idealize.SL.Sem

/-- The reference's run ends with the specification's function of the arguments in the result array. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v84)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9))
              (m ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run Cert.ReferenceIdeal.defs _ _).mono
    (fun _ h c => ⟨(h c).1.trans ((Cert.ReferenceIdeal.Read.val_main_v84_eq m c).trans (ref_is_G _ _ _ _ _ _ _ _ _ _ _)), (h c).2⟩)
    (Cert.ReferenceIdeal.Value.run (F := Ideal) m ρ)

end Cert.RefValue

end
-- ==== Proof.lean ====
/-
  The certificate of the quaternion scoring kernel against its jnp reference.

  Both programs compute, for each of 2048 batch rows, the logistic of a score: the head, tail and relation rows are
  projected onto 256 coordinates by four weight matrices each; the relation projections are scaled by the row's
  hypercomplex norm; the Hamilton product of the head quaternion with the scaled relation quaternion is dotted with the
  tail quaternion, coordinate by coordinate, and summed (`Cert.Spec.G`).

  The kernel stacks the four weight matrices, pads the contraction axis from 20000 to 20480 with zeros, and walks a
  4 × 16 grid: batch tiles of 512 rows, contraction steps of 1280 columns. Three accumulators live across the steps of a
  tile: the first step zeroes the head and tail accumulators and fills the relation one; every step adds the step's
  two matrix products; the last step forms the score and writes the tile's 512 results. On the extended reals the 16
  step products total the whole padded contraction (sums only re-associated), the padding contributes `0 · 0 = 0`,
  and a change of float format is the identity, so the accumulators end as the reference's projections and the
  written block as the reference's result: no finiteness of the inputs is used.

  Frames: the kernel's run (at the word level and idealized) terminates without fault and leaves the argument arrays
  as launched, by the body's triple at a first, a middle and a last step and the invariant that names the
  accumulators' contents point by point; the reference's by its run. The ideal pass rewrote nothing, so the
  idealization claim is trivial.
-/
import proofs.«116962_j49649821942232_2_alg».proof.Defs
import proofs.«116962_j49649821942232_2_alg».proof.Proof.Gen.Kernel
import proofs.«116962_j49649821942232_2_alg».proof.Proof.Gen.KernelIdeal
import proofs.«116962_j49649821942232_2_alg».proof.Proof.Gen.ReferenceIdeal
import proofs.«116962_j49649821942232_2_alg».proof.Proof.Gen.Pre_finite_inputs
import proofs.«116962_j49649821942232_2_alg».proof.Proof.K.Frame
import proofs.«116962_j49649821942232_2_alg».proof.Proof.KI.Value
import proofs.«116962_j49649821942232_2_alg».proof.Proof.RefRun
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.RefValue.ref_run m ρ)

/-- The ideal pass rewrote no operation. -/
theorem preserves : Cert.preserves_Kernel_KernelIdeal := trivial

/-- From memories agreeing on the arguments both idealized programs end with the specification at those arguments. -/
theorem algebraic : Cert.algebraic_KernelIdeal_ReferenceIdeal := by
  intro m ρ m' ρ' _ hagree
  refine ⟨fun c => Cert.KernelIdeal.Closed.Gk m c, Cert.KernelIdeal.Closed.run m ρ, ?_⟩
  refine (θ_run Cert.ReferenceIdeal.defs _ _).mono (fun _ h c => ⟨(h c).1.trans ?_, (h c).2⟩) (Cert.RefValue.ref_run m' ρ')
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
